-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x512 : Shape := ⟨2, ![5000, 512]⟩
abbrev S20000x4096 : Shape := ⟨2, ![20000, 4096]⟩
abbrev S1024x512 : Shape := ⟨2, ![1024, 512]⟩
abbrev S1024 : Shape := ⟨1, ![1024]⟩
abbrev S4096x1024 : Shape := ⟨2, ![4096, 1024]⟩
abbrev S4096 : Shape := ⟨1, ![4096]⟩
abbrev S51x4096 : Shape := ⟨2, ![51, 4096]⟩
abbrev S51 : Shape := ⟨1, ![51]⟩
abbrev S22801x51 : Shape := ⟨2, ![22801, 51]⟩
abbrev S5000 : Shape := ⟨1, ![5000]⟩
abbrev S20000x2 : Shape := ⟨2, ![20000, 2]⟩
abbrev S_ : Shape := ⟨0, ![]⟩

class Facts : Prop where
  bcast_S_S5000x512 : S_.BroadcastsInDim S5000x512 (![] : Fin 0 → Fin S5000x512.rank)
  reducesTo_S5000x512_S_d0_1 : S5000x512.ReducesTo [0, 1] S_
  h_S_ : 0 < S_.numel
  bcast_S_S20000x4096 : S_.BroadcastsInDim S20000x4096 (![] : Fin 0 → Fin S20000x4096.rank)
  reducesTo_S20000x4096_S_d0_1 : S20000x4096.ReducesTo [0, 1] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S51x4096 : S_.BroadcastsInDim S51x4096 (![] : Fin 0 → Fin S51x4096.rank)
  reducesTo_S51x4096_S_d0_1 : S51x4096.ReducesTo [0, 1] S_
  bcast_S_S51 : S_.BroadcastsInDim S51 (![] : Fin 0 → Fin S51.rank)
  reducesTo_S51_S_d0 : S51.ReducesTo [0] S_
  bcast_S_S22801x51 : S_.BroadcastsInDim S22801x51 (![] : Fin 0 → Fin S22801x51.rank)
  reducesTo_S22801x51_S_d0_1 : S22801x51.ReducesTo [0, 1] S_
  bcast_S_S20000x2 : S_.BroadcastsInDim S20000x2 (![] : Fin 0 → Fin S20000x2.rank)
  reducesTo_S20000x2_S_d0_1 : S20000x2.ReducesTo [0, 1] S_

variable [Facts]

def fn_part2 {F : FTy → Type} [FloatOps F] (main_arg7 : FVec F S51 .f32) (main_arg8 : FVec F S22801x51 .f32) (main_arg10 : IVec S20000x2 32) (main_v33 : IVec S_ 1) : IVec S_ 1 :=
  let main_v34 : FVec F S51 .f32 := Host.absf main_arg7
  let main_cst_12 : FVec F S_ .f32 := constant S_ .f32 0x7F800000#32
  let main_v35 : FVec F S51 .f32 := broadcastInDim S51 ![] bcast_S_S51 main_cst_12
  let main_v36 : IVec S51 1 := cmpf .olt main_v34 main_v35
  let main_c_13 : IVec S_ 1 := constantI S_ 1 1#1
  let main_v37 : IVec S_ 1 := (fun x v => Host.reduce IntOp.andi x v reducesTo_S51_S_d0 h_S_) main_v36 main_c_13
  let main_v38 : IVec S_ 1 := andi main_v33 main_v37
  let main_v39 : FVec F S22801x51 .f32 := Host.absf main_arg8
  let main_cst_14 : FVec F S_ .f32 := constant S_ .f32 0x7F800000#32
  let main_v40 : FVec F S22801x51 .f32 := broadcastInDim S22801x51 ![] bcast_S_S22801x51 main_cst_14
  let main_v41 : IVec S22801x51 1 := cmpf .olt main_v39 main_v40
  let main_c_15 : IVec S_ 1 := constantI S_ 1 1#1
  let main_v42 : IVec S_ 1 := (fun x v => Host.reduce IntOp.andi x v reducesTo_S22801x51_S_d0_1 h_S_) main_v41 main_c_15
  let main_v43 : IVec S_ 1 := andi main_v38 main_v42
  let main_c_16 : IVec S_ 32 := constantI S_ 32 0#32
  let main_v44 : IVec S20000x2 32 := broadcastInDim S20000x2 ![] bcast_S_S20000x2 main_c_16
  let main_v45 : IVec S20000x2 1 := cmpi .sge main_arg10 main_v44
  let main_c_17 : IVec S_ 32 := constantI S_ 32 5000#32
  let main_v46 : IVec S20000x2 32 := broadcastInDim S20000x2 ![] bcast_S_S20000x2 main_c_17
  let main_v47 : IVec S20000x2 1 := cmpi .slt main_arg10 main_v46
  let main_v48 : IVec S20000x2 1 := andi main_v45 main_v47
  let main_c_18 : IVec S_ 1 := constantI S_ 1 1#1
  let main_v49 : IVec S_ 1 := (fun x v => Host.reduce IntOp.andi x v reducesTo_S20000x2_S_d0_1 h_S_) main_v48 main_c_18
  let main_v50 : IVec S_ 1 := andi main_v43 main_v49
  main_v50

def fn_part1 {F : FTy → Type} [FloatOps F] (main_arg4 : FVec F S4096x1024 .f32) (main_arg5 : FVec F S4096 .f32) (main_arg6 : FVec F S51x4096 .f32) (main_arg7 : FVec F S51 .f32) (main_arg8 : FVec F S22801x51 .f32) (main_arg10 : IVec S20000x2 32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S51x4096 .f32 := Host.absf main_arg6
  let main_cst_10 : FVec F S_ .f32 := constant S_ .f32 0x7F800000#32
  let main_v30 : FVec F S51x4096 .f32 := broadcastInDim S51x4096 ![] bcast_S_S51x4096 main_cst_10
  let main_v31 : IVec S51x4096 1 := cmpf .olt main_v29 main_v30
  let main_c_11 : IVec S_ 1 := constantI S_ 1 1#1
  let main_v32 : IVec S_ 1 := (fun x v => Host.reduce IntOp.andi x v reducesTo_S51x4096_S_d0_1 h_S_) main_v31 main_c_11
  let main_v33 : IVec S_ 1 := andi main_v28 main_v32
  fn_part2 (F := F) main_arg7 main_arg8 main_arg10 main_v33

def fn {F : FTy → Type} [FloatOps F] (main_arg0 : FVec F S5000x512 .f32) (main_arg1 : FVec F S20000x4096 .f32) (main_arg2 : FVec F S1024x512 .f32) (main_arg3 : FVec F S1024 .f32) (main_arg4 : FVec F S4096x1024 .f32) (main_arg5 : FVec F S4096 .f32) (main_arg6 : FVec F S51x4096 .f32) (main_arg7 : FVec F S51 .f32) (main_arg8 : FVec F S22801x51 .f32) (main_arg9 : IVec S5000 32) (main_arg10 : IVec S20000x2 32) : IVec S_ 1 :=
  let main_v0 : FVec F S5000x512 .f32 := Host.absf main_arg0
  let main_cst : FVec F S_ .f32 := constant S_ .f32 0x7F800000#32
  let main_v1 : FVec F S5000x512 .f32 := broadcastInDim S5000x512 ![] bcast_S_S5000x512 main_cst
  let main_v2 : IVec S5000x512 1 := cmpf .olt main_v0 main_v1
  let main_c : IVec S_ 1 := constantI S_ 1 1#1
  let main_v3 : IVec S_ 1 := (fun x v => Host.reduce IntOp.andi x v reducesTo_S5000x512_S_d0_1 h_S_) main_v2 main_c
  let main_v4 : FVec F S20000x4096 .f32 := Host.absf main_arg1
  let main_cst_0 : FVec F S_ .f32 := constant S_ .f32 0x7F800000#32
  let main_v5 : FVec F S20000x4096 .f32 := broadcastInDim S20000x4096 ![] bcast_S_S20000x4096 main_cst_0
  let main_v6 : IVec S20000x4096 1 := cmpf .olt main_v4 main_v5
  let main_c_1 : IVec S_ 1 := constantI S_ 1 1#1
  let main_v7 : IVec S_ 1 := (fun x v => Host.reduce IntOp.andi x v reducesTo_S20000x4096_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg10 main_v13 main_v16
-- ==== Kernel.lean ====
abbrev S5000x512 : Shape := ⟨2, ![5000, 512]⟩
abbrev S20000x4096 : Shape := ⟨2, ![20000, 4096]⟩
abbrev S1024x512 : Shape := ⟨2, ![1024, 512]⟩
abbrev S1024 : Shape := ⟨1, ![1024]⟩
abbrev S4096x1024 : Shape := ⟨2, ![4096, 1024]⟩
abbrev S4096 : Shape := ⟨1, ![4096]⟩
abbrev S51x4096 : Shape := ⟨2, ![51, 4096]⟩
abbrev S51 : Shape := ⟨1, ![51]⟩
abbrev S22801x51 : Shape := ⟨2, ![22801, 51]⟩
abbrev S5000 : Shape := ⟨1, ![5000]⟩
abbrev S20000x2 : Shape := ⟨2, ![20000, 2]⟩
abbrev S_ : Shape := ⟨0, ![]⟩
abbrev S5120x512 : Shape := ⟨2, ![5120, 512]⟩
abbrev S512x1024 : Shape := ⟨2, ![512, 1024]⟩
abbrev S1280x512 : Shape := ⟨2, ![1280, 512]⟩
abbrev S1280x1024 : Shape := ⟨2, ![1280, 1024]⟩
abbrev S1x1024 : Shape := ⟨2, ![1, 1024]⟩
abbrev S20000x1 : Shape := ⟨2, ![20000, 1]⟩
abbrev S20000 : Shape := ⟨1, ![20000]⟩
abbrev S20000x512 : Shape := ⟨2, ![20000, 512]⟩
abbrev S20000x51 : Shape := ⟨2, ![20000, 51]⟩
abbrev S4096x512 : Shape := ⟨2, ![4096, 512]⟩
abbrev S512x4096 : Shape := ⟨2, ![512, 4096]⟩
abbrev S4096x51 : Shape := ⟨2, ![4096, 51]⟩
abbrev S400x512 : Shape := ⟨2, ![400, 512]⟩
abbrev S400x4096 : Shape := ⟨2, ![400, 4096]⟩
abbrev S400x51 : Shape := ⟨2, ![400, 51]⟩
abbrev S1x4096 : Shape := ⟨2, ![1, 4096]⟩
abbrev S1x51 : Shape := ⟨2, ![1, 51]⟩

abbrev nBuf : Space → Nat
  | .hbm => 78
  | .vmem => 23
  | .smem => 0
  | _ => 0

abbrev bufTy : (tb : Table) → Fin (tcTables nBuf tb) → BufTy
  | .hbm, ⟨0, _⟩ => ⟨S5000x512, .f32⟩
  | .hbm, ⟨1, _⟩ => ⟨S20000x4096, .f32⟩
  | .hbm, ⟨2, _⟩ => ⟨S1024x512, .f32⟩
  | .hbm, ⟨3, _⟩ => ⟨S1024, .f32⟩
  | .hbm, ⟨4, _⟩ => ⟨S4096x1024, .f32⟩
  | .hbm, ⟨5, _⟩ => ⟨S4096, .f32⟩
  | .hbm, ⟨6, _⟩ => ⟨S51x4096, .f32⟩
  | .hbm, ⟨7, _⟩ => ⟨S51, .f32⟩
  | .hbm, ⟨8, _⟩ => ⟨S22801x51, .f32⟩
  | .hbm, ⟨9, _⟩ => ⟨S5000, .i32⟩
  | .hbm, ⟨10, _⟩ => ⟨S20000x2, .i32⟩
  | .hbm, ⟨11, _⟩ => ⟨S_, .i32⟩
  | .hbm, ⟨12, _⟩ => ⟨S_, .f32⟩
  | .hbm, ⟨13, _⟩ => ⟨S5120x512, .f32⟩
  | .hbm, ⟨14, _⟩ => ⟨S512x1024, .f32⟩
  | .hbm, ⟨15, _⟩ => ⟨S5120x512, .bf16⟩
  | .hbm, ⟨16, _⟩ => ⟨S5120x512, .bf16⟩
  | .hbm, ⟨17, _⟩ => ⟨S20000x1, .i32⟩
  | .hbm, ⟨18, _⟩ => ⟨S20000, .i32⟩
  | .hbm, ⟨19, _⟩ => ⟨S20000x1, .i32⟩
  | .hbm, ⟨20, _⟩ => ⟨S20000, .i32⟩
  | .hbm, ⟨21, _⟩ => ⟨S_, .i32⟩
  | .hbm, ⟨22, _⟩ => ⟨S20000, .i32⟩
  | .hbm, ⟨23, _⟩ => ⟨S20000, .i1⟩
  | .hbm, ⟨24, _⟩ => ⟨S_, .i32⟩
  | .hbm, ⟨25, _⟩ => ⟨S20000, .i32⟩
  | .hbm, ⟨26, _⟩ => ⟨S20000, .i32⟩
  | .hbm, ⟨27, _⟩ => ⟨S20000, .i32⟩
  | .hbm, ⟨28, _⟩ => ⟨S20000x1, .i32⟩
  | .hbm, ⟨29, _⟩ => ⟨S20000x512, .bf16⟩
  | .hbm, ⟨30, _⟩ => ⟨S_, .i32⟩
  | .hbm, ⟨31, _⟩ => ⟨S20000, .i32⟩
  | .hbm, ⟨32, _⟩ => ⟨S20000, .i1⟩
  | .hbm, ⟨33, _⟩ => ⟨S_, .i32⟩
  | .hbm, ⟨34, _⟩ => ⟨S20000, .i32⟩
  | .hbm, ⟨35, _⟩ => ⟨S20000, .i32⟩
  | .hbm, ⟨36, _⟩ => ⟨S20000, .i32⟩
  | .hbm, ⟨37, _⟩ => ⟨S20000x1, .i32⟩
  | .hbm, ⟨38, _⟩ => ⟨S20000x512, .bf16⟩
  | .hbm, ⟨39, _⟩ => ⟨S_, .i32⟩
  | .hbm, ⟨40, _⟩ => ⟨S20000, .i32⟩
  | .hbm, ⟨41, _⟩ => ⟨S20000, .i1⟩
  | .hbm, ⟨42, _⟩ => ⟨S_, .i32⟩
  | .hbm, ⟨43, _⟩ => ⟨S20000, .i32⟩
  | .hbm, ⟨44, _⟩ => ⟨S20000, .i32⟩
  | .hbm, ⟨45, _⟩ => ⟨S20000, .i32⟩
  | .hbm, ⟨46, _⟩ => ⟨S20000x1, .i32⟩
  | .hbm, ⟨47, _⟩ => ⟨S20000, .i32⟩
  | .hbm, ⟨48, _⟩ => ⟨S_, .i32⟩
  | .hbm, ⟨49, _⟩ => ⟨S20000, .i32⟩
  | .hbm, ⟨50, _⟩ => ⟨S20000, .i32⟩
  | .hbm, ⟨51, _⟩ => ⟨S_, .i32⟩
  | .hbm, ⟨52, _⟩ => ⟨S20000, .i32⟩
  | .hbm, ⟨53, _⟩ => ⟨S20000, .i1⟩
  | .hbm, ⟨54, _⟩ => ⟨S_, .i32⟩
  | .hbm, ⟨55, _⟩ => ⟨S20000, .i32⟩
  | .hbm, ⟨56, _⟩ => ⟨S20000, .i32⟩
  | .hbm, ⟨57, _⟩ => ⟨S20000, .i32⟩
  | .hbm, ⟨58, _⟩ => ⟨S20000x1, .i32⟩
  | .hbm, ⟨59, _⟩ => ⟨S20000, .i32⟩
  | .hbm, ⟨60, _⟩ => ⟨S20000, .i32⟩
  | .hbm, ⟨61, _⟩ => ⟨S_, .i32⟩
  | .hbm, ⟨62, _⟩ => ⟨S20000, .i32⟩
  | .hbm, ⟨63, _⟩ => ⟨S20000, .i1⟩
  | .hbm, ⟨64, _⟩ => ⟨S_, .i32⟩
  | .hbm, ⟨65, _⟩ => ⟨S20000, .i32⟩
  | .hbm, ⟨66, _⟩ => ⟨S20000, .i32⟩
  | .hbm, ⟨67, _⟩ => ⟨S20000, .i32⟩
  | .hbm, ⟨68, _⟩ => ⟨S20000x1, .i32⟩
  | .hbm, ⟨69, _⟩ => ⟨S20000x51, .f32⟩
  | .hbm, ⟨70, _⟩ => ⟨S4096x512, .f32⟩
  | .hbm, ⟨71, _⟩ => ⟨S512x4096, .f32⟩
  | .hbm, ⟨72, _⟩ => ⟨S512x4096, .bf16⟩
  | .hbm, ⟨73, _⟩ => ⟨S4096x512, .f32⟩
  | .hbm, ⟨74, _⟩ => ⟨S512x4096, .f32⟩
  | .hbm, ⟨75, _⟩ => ⟨S512x4096, .bf16⟩
  | .hbm, ⟨76, _⟩ => ⟨S4096x51, .f32⟩
  | .hbm, ⟨77, _⟩ => ⟨S20000x51, .f32⟩
  | .local _ .vmem, ⟨0, _⟩ => ⟨S1280x512, .f32⟩
  | .local _ .vmem, ⟨1, _⟩ => ⟨S1280x512, .f32⟩
  | .local _ .vmem, ⟨2, _⟩ => ⟨S512x1024, .f32⟩
  | .local _ .vmem, ⟨3, _⟩ => ⟨S1024, .f32⟩
  | .local _ .vmem, ⟨4, _⟩ => ⟨S1280x512, .bf16⟩
  | .local _ .vmem, ⟨5, _⟩ => ⟨S1280x512, .bf16⟩
  | .local _ .vmem, ⟨6, _⟩ => ⟨S1280x512, .bf16⟩
  | .local _ .vmem, ⟨7, _⟩ => ⟨S1280x512, .bf16⟩
  | .local _ .vmem, ⟨8, _⟩ => ⟨S400x512, .bf16⟩
  | .local _ .vmem, ⟨9, _⟩ => ⟨S400x512, .bf16⟩
  | .local _ .vmem, ⟨10, _⟩ => ⟨S400x512, .bf16⟩
  | .local _ .vmem, ⟨11, _⟩ => ⟨S400x512, .bf16⟩
  | .local _ .vmem, ⟨12, _⟩ => ⟨S400x4096, .f32⟩
  | .local _ .vmem, ⟨13, _⟩ => ⟨S400x4096, .f32⟩
  | .local _ .vmem, ⟨14, _⟩ => ⟨S400x51, .f32⟩
  | .local _ .vmem, ⟨15, _⟩ => ⟨S400x51, .f32⟩
  | .local _ .vmem, ⟨16, _⟩ => ⟨S512x4096, .bf16⟩
  | .local _ .vmem, ⟨17, _⟩ => ⟨S512x4096, .bf16⟩
  | .local _ .vmem, ⟨18, _⟩ => ⟨S4096, .f32⟩
  | .local _ .vmem, ⟨19, _⟩ => ⟨S4096x51, .f32⟩
  | .local _ .vmem, ⟨20, _⟩ => ⟨S51, .f32⟩
  | .local _ .vmem, ⟨21, _⟩ => ⟨S400x51, .f32⟩
  | .local _ .vmem, ⟨22, _⟩ => ⟨S400x51, .f32⟩
  | _, _ => ⟨S5000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_c_7 : Ref sig .tc := ⟨.hbm, 51, rfl⟩
abbrev main_v30 : Ref sig .tc := ⟨.hbm, 52, rfl⟩
abbrev main_v31 : Ref sig .tc := ⟨.hbm, 53, rfl⟩
abbrev main_c_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1280x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x51 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S512x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x4096 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4096 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4096x51 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S51 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S400x51 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  pads_S5000x512_S5120x512_01200_000 : S5000x512.Pads (![0, 0] : Fin 2 → Nat) ![120, 0] ![0, 0] S5120x512
  h_S_ : 0 < S_.numel
  transposes_S1024x512_S512x1024_1_0 : S1024x512.Transposes [1, 0] S512x1024
  inb_S1280x512_S1280x512_0_0 : ∀ a, (![0, 0] : Fin 2 → Nat) a + S1280x512.size a ≤ S1280x512.size a
  h_S1280x512 : 0 < S1280x512.numel
  shapeCasts_S1280x512_S1280x512 : S1280x512.ShapeCasts S1280x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1280x1024 : S1x1024.Broadcasts S1280x1024
  slices_S1280x1024_o0_0_S1280x512 : S1280x1024.Slices ![0, 0] S1280x512
  bitsLt_bf16_f32 : FTy.bits .bf16 < FTy.bits .f32
  packedbf16_S1280x512_S1280x512_0_0 : (Rect.unit (s := S1280x512) ![0, 0] S1280x512.size inb_S1280x512_S1280x512_0_0).PackedRows (EltTy.packing .bf16)
  slices_S1280x1024_o0_512_S1280x512 : S1280x1024.Slices ![0, 512] S1280x512
  slices_S20000x2_S20000x1_0_0 : S20000x2.Slices ![0, 0] S20000x1
  shapeCasts_S20000x1_S20000 : S20000x1.ShapeCasts S20000
  slices_S20000x2_S20000x1_0_1 : S20000x2.Slices ![0, 1] S20000x1
  bcast_S_S20000 : S_.BroadcastsInDim S20000 (![] : Fin 0 → Fin S20000.rank)
  bcast_S20000_S20000x1_0 : S20000.BroadcastsInDim S20000x1 (![0] : Fin 1 → Fin S20000x1.rank)
  slices_S4096x1024_S4096x512_0_0 : S4096x1024.Slices ![0, 0] S4096x512
  transposes_S4096x512_S512x4096_1_0 : S4096x512.Transposes [1, 0] S512x4096
  slices_S4096x1024_S4096x512_0_512 : S4096x1024.Slices ![0, 512] S4096x512
  transposes_S51x4096_S4096x51_1_0 : S51x4096.Transposes [1, 0] S4096x51
  inb_S400x512_S400x512_0_0 : ∀ a, (![0, 0] : Fin 2 → Nat) a + S400x512.size a ≤ S400x512.size a
  h_S400x512 : 0 < S400x512.numel
  shapeCasts_S400x512_S400x512 : S400x512.ShapeCasts S400x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S400x4096 : S1x4096.Broadcasts S400x4096
  inb_S400x4096_S400x4096_0_0 : ∀ a, (![0, 0] : Fin 2 → Nat) a + S400x4096.size a ≤ S400x4096.size a
  h_S400x4096 : 0 < S400x4096.numel
  inb_S4096x51_S4096x51_0_0 : ∀ a, (![0, 0] : Fin 2 → Nat) a + S4096x51.size a ≤ S4096x51.size a
  h_S4096x51 : 0 < S4096x51.numel
  shapeCasts_S4096x51_S4096x51 : S4096x51.ShapeCasts S4096x51
  inb_S51_S51_0 : ∀ a, (![0] : Fin 1 → Nat) a + S51.size a ≤ S51.size a
  h_S51 : 0 < S51.numel
  shapeCasts_S51_S1x51 : S51.ShapeCasts S1x51
  broadcasts_S1x51_S400x51 : S1x51.Broadcasts S400x51
  inb_S400x51_S400x51_0_0 : ∀ a, (![0, 0] : Fin 2 → Nat) a + S400x51.size a ≤ S400x51.size a
  h_S400x51 : 0 < S400x51.numel
  shapeCasts_S400x51_S400x51 : S400x51.ShapeCasts S400x51
  dot_S1280x512_S512x1024_S1280x1024_1_0_0_1_n_n_wf : DotDims.WF S1280x512 S512x1024 S1280x1024 [1] [0] [0] [1] [] []
  gather_S5120x512_S20000x1_S20000x512_1_0_n_n_0_1_1512_wf : GatherDims.WF S5120x512 S20000x1 S20000x512 [1] [0] [] [0] [] 1 ![1, 512]
  gather_S5000_S20000x1_S20000_n_0_n_n_0_1_1_wf : GatherDims.WF S5000 S20000x1 S20000 [] [0] [] [0] [] 1 ![1]
  gather_S22801x51_S20000x1_S20000x51_1_0_n_n_0_1_151_wf : GatherDims.WF S22801x51 S20000x1 S20000x51 [1] [0] [] [0] [] 1 ![1, 51]
  dot_S400x512_S512x4096_S400x4096_1_0_0_1_n_n_wf : DotDims.WF S400x512 S512x4096 S400x4096 [1] [0] [0] [1] [] []
  dot_S400x4096_S4096x51_S400x51_1_0_0_1_n_n_wf : DotDims.WF S400x4096 S4096x51 S400x51 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x512.size a ≤ S5120x512.size a
  hwx0_0 : ∀ i : grid0.Coords, EltTy.bits .f32 = 32 ∨ (Rect.block (s := S5120x512) S1280x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1280x512.size a ≤ S5120x512.size a
  hwx0_3 : ∀ i : grid0.Coords, EltTy.bits .bf16 = 32 ∨ (Rect.block (s := S5120x512) S1280x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1280x512.size a ≤ S5120x512.size a
  hwx0_4 : ∀ i : grid0.Coords, EltTy.bits .bf16 = 32 ∨ (Rect.block (s := S5120x512) S1280x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x512.size a ≤ S20000x512.size a
  hwx1_0 : ∀ i : grid1.Coords, EltTy.bits .bf16 = 32 ∨ (Rect.block (s := S20000x512) S400x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x512.size a ≤ S20000x512.size a
  hwx1_1 : ∀ i : grid1.Coords, EltTy.bits .bf16 = 32 ∨ (Rect.block (s := S20000x512) S400x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x4096.size a ≤ S20000x4096.size a
  hwx1_2 : ∀ i : grid1.Coords, EltTy.bits .f32 = 32 ∨ (Rect.block (s := S20000x4096) S400x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x51.size a ≤ S20000x51.size a
  hwx1_3 : ∀ i : grid1.Coords, EltTy.bits .f32 = 32 ∨ (Rect.block (s := S20000x51) S400x51.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x4096.size a ≤ S512x4096.size a
  hwx1_4 : ∀ i : grid1.Coords, EltTy.bits .bf16 = 32 ∨ (Rect.block (s := S512x4096) S512x4096.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x4096.size a ≤ S512x4096.size a
  hwx1_5 : ∀ i : grid1.Coords, EltTy.bits .bf16 = 32 ∨ (Rect.block (s := S512x4096) S512x4096.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4096.size a ≤ S4096.size a
  hwx1_6 : ∀ i : grid1.Coords, EltTy.bits .f32 = 32 ∨ (Rect.block (s := S4096) S4096.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S4096x51.size a ≤ S4096x51.size a
  hwx1_7 : ∀ i : grid1.Coords, EltTy.bits .f32 = 32 ∨ (Rect.block (s := S4096x51) S4096x51.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S51.size a ≤ S51.size a
  hwx1_8 : ∀ i : grid1.Coords, EltTy.bits .f32 = 32 ∨ (Rect.block (s := S51) S51.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S400x51.size a ≤ S20000x51.size a
  hwx1_9 : ∀ i : grid1.Coords, EltTy.bits .f32 = 32 ∨ (Rect.block (s := S20000x51) S400x51.size (cc1_transform_9 i) (hinb1_9 i)).WholeWords (EltTy.packing .f32)

variable [Facts₀]

def dot_S1280x512_S512x1024_S1280x1024_1_0_0_1_n_n : DotDims S1280x512 S512x1024 S1280x1024 where
  lhsContracting := [1]
  rhsContracting := [0]
  lhsNonContracting := [0]
  rhsNonContracting := [1]
  lhsBatch := []
  rhsBatch := []
  wf := dot_S1280x512_S512x1024_S1280x1024_1_0_0_1_n_n_wf
def gather_S5120x512_S20000x1_S20000x512_1_0_n_n_0_1_1512 : GatherDims S5120x512 S20000x1 S20000x512 where
  offsetDims := [1]
  collapsedSliceDims := [0]
  operandBatchingDims := []
  startIndicesBatchingDims := []
  startIndexMap := [0]
  indexVectorDim := 1
  sliceSizes := ![1, 512]
  wf := gather_S5120x512_S20000x1_S20000x512_1_0_n_n_0_1_1512_wf
def gather_S5000_S20000x1_S20000_n_0_n_n_0_1_1 : GatherDims S5000 S20000x1 S20000 where
  offsetDims := []
  collapsedSliceDims := [0]
  operandBatchingDims := []
  startIndicesBatchingDims := []
  startIndexMap := [0]
  indexVectorDim := 1
  sliceSizes := ![1]
  wf := gather_S5000_S20000x1_S20000_n_0_n_n_0_1_1_wf
def gather_S22801x51_S20000x1_S20000x51_1_0_n_n_0_1_151 : GatherDims S22801x51 S20000x1 S20000x51 where
  offsetDims := [1]
  collapsedSliceDims := [0]
  operandBatchingDims := []
  startIndicesBatchingDims := []
  startIndexMap := [0]
  indexVectorDim := 1
  sliceSizes := ![1, 51]
  wf := gather_S22801x51_S20000x1_S20000x51_1_0_n_n_0_1_151_wf
def dot_S400x512_S512x4096_S400x4096_1_0_0_1_n_n : DotDims S400x512 S512x4096 S400x4096 where
  lhsContracting := [1]
  rhsContracting := [0]
  lhsNonContracting := [0]
  rhsNonContracting := [1]
  lhsBatch := []
  rhsBatch := []
  wf := dot_S400x512_S512x4096_S400x4096_1_0_0_1_n_n_wf
def dot_S400x4096_S4096x51_S400x51_1_0_0_1_n_n : DotDims S400x4096 S4096x51 S400x51 where
  lhsContracting := [1]
  rhsContracting := [0]
  lhsNonContracting := [0]
  rhsNonContracting := [1]
  lhsBatch := []
  rhsBatch := []
  wf := dot_S400x4096_S4096x51_S400x51_1_0_0_1_n_n_wf

abbrev win0_0 : Pipeline.Window sig grid0 :=
  Pipeline.Window.ofSpec (Memref.whole main_v0) S1280x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1280x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1280x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v13) S400x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S400x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S400x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S400x51.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v47) S512x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S512x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S4096.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51) S4096x51.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg7) S51.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v52) S400x51.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S5000x512 : Shape := ⟨2, ![5000, 512]⟩
abbrev S20000x4096 : Shape := ⟨2, ![20000, 4096]⟩
abbrev S1024x512 : Shape := ⟨2, ![1024, 512]⟩
abbrev S1024 : Shape := ⟨1, ![1024]⟩
abbrev S4096x1024 : Shape := ⟨2, ![4096, 1024]⟩
abbrev S4096 : Shape := ⟨1, ![4096]⟩
abbrev S51x4096 : Shape := ⟨2, ![51, 4096]⟩
abbrev S51 : Shape := ⟨1, ![51]⟩
abbrev S22801x51 : Shape := ⟨2, ![22801, 51]⟩
abbrev S5000 : Shape := ⟨1, ![5000]⟩
abbrev S20000x2 : Shape := ⟨2, ![20000, 2]⟩
abbrev S512x1024 : Shape := ⟨2, ![512, 1024]⟩
abbrev S5000x1024 : Shape := ⟨2, ![5000, 1024]⟩
abbrev S1x1024 : Shape := ⟨2, ![1, 1024]⟩
abbrev S_ : Shape := ⟨0, ![]⟩
abbrev S20000x1 : Shape := ⟨2, ![20000, 1]⟩
abbrev S20000 : Shape := ⟨1, ![20000]⟩
abbrev S20000x512 : Shape := ⟨2, ![20000, 512]⟩
abbrev S20000x1024 : Shape := ⟨2, ![20000, 1024]⟩
abbrev S1024x4096 : Shape := ⟨2, ![1024, 4096]⟩
abbrev S1x4096 : Shape := ⟨2, ![1, 4096]⟩
abbrev S4096x51 : Shape := ⟨2, ![4096, 51]⟩
abbrev S20000x51 : Shape := ⟨2, ![20000, 51]⟩
abbrev S1x51 : Shape := ⟨2, ![1, 51]⟩

abbrev nBuf : Space → Nat
  | .hbm => 87
  | .vmem => 0
  | .smem => 0
  | _ => 0

abbrev bufTy : (tb : Table) → Fin (tcTables nBuf tb) → BufTy
  | .hbm, ⟨0, _⟩ => ⟨S5000x512, .f32⟩
  | .hbm, ⟨1, _⟩ => ⟨S20000x4096, .f32⟩
  | .hbm, ⟨2, _⟩ => ⟨S1024x512, .f32⟩
  | .hbm, ⟨3, _⟩ => ⟨S1024, .f32⟩
  | .hbm, ⟨4, _⟩ => ⟨S4096x1024, .f32⟩
  | .hbm, ⟨5, _⟩ => ⟨S4096, .f32⟩
  | .hbm, ⟨6, _⟩ => ⟨S51x4096, .f32⟩
  | .hbm, ⟨7, _⟩ => ⟨S51, .f32⟩
  | .hbm, ⟨8, _⟩ => ⟨S22801x51, .f32⟩
  | .hbm, ⟨9, _⟩ => ⟨S5000, .i32⟩
  | .hbm, ⟨10, _⟩ => ⟨S20000x2, .i32⟩
  | .hbm, ⟨11, _⟩ => ⟨S512x1024, .f32⟩
  | .hbm, ⟨12, _⟩ => ⟨S5000x1024, .f32⟩
  | .hbm, ⟨13, _⟩ => ⟨S1x1024, .f32⟩
  | .hbm, ⟨14, _⟩ => ⟨S5000x1024, .f32⟩
  | .hbm, ⟨15, _⟩ => ⟨S5000x1024, .f32⟩
  | .hbm, ⟨16, _⟩ => ⟨S_, .f32⟩
  | .hbm, ⟨17, _⟩ => ⟨S5000x1024, .f32⟩
  | .hbm, ⟨18, _⟩ => ⟨S5000x1024, .f32⟩
  | .hbm, ⟨19, _⟩ => ⟨S5000x512, .f32⟩
  | .hbm, ⟨20, _⟩ => ⟨S5000x512, .f32⟩
  | .hbm, ⟨21, _⟩ => ⟨S20000x1, .i32⟩
  | .hbm, ⟨22, _⟩ => ⟨S20000, .i32⟩
  | .hbm, ⟨23, _⟩ => ⟨S20000x1, .i32⟩
  | .hbm, ⟨24, _⟩ => ⟨S20000, .i32⟩
  | .hbm, ⟨25, _⟩ => ⟨S_, .i32⟩
  | .hbm, ⟨26, _⟩ => ⟨S20000, .i32⟩
  | .hbm, ⟨27, _⟩ => ⟨S20000, .i1⟩
  | .hbm, ⟨28, _⟩ => ⟨S_, .i32⟩
  | .hbm, ⟨29, _⟩ => ⟨S20000, .i32⟩
  | .hbm, ⟨30, _⟩ => ⟨S20000, .i32⟩
  | .hbm, ⟨31, _⟩ => ⟨S20000, .i32⟩
  | .hbm, ⟨32, _⟩ => ⟨S20000x1, .i32⟩
  | .hbm, ⟨33, _⟩ => ⟨S20000x512, .f32⟩
  | .hbm, ⟨34, _⟩ => ⟨S_, .i32⟩
  | .hbm, ⟨35, _⟩ => ⟨S20000, .i32⟩
  | .hbm, ⟨36, _⟩ => ⟨S20000, .i1⟩
  | .hbm, ⟨37, _⟩ => ⟨S_, .i32⟩
  | .hbm, ⟨38, _⟩ => ⟨S20000, .i32⟩
  | .hbm, ⟨39, _⟩ => ⟨S20000, .i32⟩
  | .hbm, ⟨40, _⟩ => ⟨S20000, .i32⟩
  | .hbm, ⟨41, _⟩ => ⟨S20000x1, .i32⟩
  | .hbm, ⟨42, _⟩ => ⟨S20000x512, .f32⟩
  | .hbm, ⟨43, _⟩ => ⟨S20000x1024, .f32⟩
  | .hbm, ⟨44, _⟩ => ⟨S1024x4096, .f32⟩
  | .hbm, ⟨45, _⟩ => ⟨S20000x4096, .f32⟩
  | .hbm, ⟨46, _⟩ => ⟨S1x4096, .f32⟩
  | .hbm, ⟨47, _⟩ => ⟨S20000x4096, .f32⟩
  | .hbm, ⟨48, _⟩ => ⟨S20000x4096, .f32⟩
  | .hbm, ⟨49, _⟩ => ⟨S20000x4096, .f32⟩
  | .hbm, ⟨50, _⟩ => ⟨S4096x51, .f32⟩
  | .hbm, ⟨51, _⟩ => ⟨S20000x51, .f32⟩
  | .hbm, ⟨52, _⟩ => ⟨S1x51, .f32⟩
  | .hbm, ⟨53, _⟩ => ⟨S20000x51, .f32⟩
  | .hbm, ⟨54, _⟩ => ⟨S20000x51, .f32⟩
  | .hbm, ⟨55, _⟩ => ⟨S_, .i32⟩
  | .hbm, ⟨56, _⟩ => ⟨S20000, .i32⟩
  | .hbm, ⟨57, _⟩ => ⟨S20000, .i1⟩
  | .hbm, ⟨58, _⟩ => ⟨S_, .i32⟩
  | .hbm, ⟨59, _⟩ => ⟨S20000, .i32⟩
  | .hbm, ⟨60, _⟩ => ⟨S20000, .i32⟩
  | .hbm, ⟨61, _⟩ => ⟨S20000, .i32⟩
  | .hbm, ⟨62, _⟩ => ⟨S20000x1, .i32⟩
  | .hbm, ⟨63, _⟩ => ⟨S20000, .i32⟩
  | .hbm, ⟨64, _⟩ => ⟨S_, .i32⟩
  | .hbm, ⟨65, _⟩ => ⟨S20000, .i32⟩
  | .hbm, ⟨66, _⟩ => ⟨S20000, .i32⟩
  | .hbm, ⟨67, _⟩ => ⟨S_, .i32⟩
  | .hbm, ⟨68, _⟩ => ⟨S20000, .i32⟩
  | .hbm, ⟨69, _⟩ => ⟨S20000, .i1⟩
  | .hbm, ⟨70, _⟩ => ⟨S_, .i32⟩
  | .hbm, ⟨71, _⟩ => ⟨S20000, .i32⟩
  | .hbm, ⟨72, _⟩ => ⟨S20000, .i32⟩
  | .hbm, ⟨73, _⟩ => ⟨S20000, .i32⟩
  | .hbm, ⟨74, _⟩ => ⟨S20000x1, .i32⟩
  | .hbm, ⟨75, _⟩ => ⟨S20000, .i32⟩
  | .hbm, ⟨76, _⟩ => ⟨S20000, .i32⟩
  | .hbm, ⟨77, _⟩ => ⟨S_, .i32⟩
  | .hbm, ⟨78, _⟩ => ⟨S20000, .i32⟩
  | .hbm, ⟨79, _⟩ => ⟨S20000, .i1⟩
  | .hbm, ⟨80, _⟩ => ⟨S_, .i32⟩
  | .hbm, ⟨81, _⟩ => ⟨S20000, .i32⟩
  | .hbm, ⟨82, _⟩ => ⟨S20000, .i32⟩
  | .hbm, ⟨83, _⟩ => ⟨S20000, .i32⟩
  | .hbm, ⟨84, _⟩ => ⟨S20000x1, .i32⟩
  | .hbm, ⟨85, _⟩ => ⟨S20000x51, .f32⟩
  | .hbm, ⟨86, _⟩ => ⟨S20000x51, .f32⟩
  | _, _ => ⟨S5000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_3 : Ref sig .tc := ⟨.hbm, 55, rfl⟩
abbrev main_v38 : Ref sig .tc := ⟨.hbm, 56, rfl⟩
abbrev main_v39 : Ref sig .tc := ⟨.hbm, 57, rfl⟩
abbrev main_c_4 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_5 : Ref sig .tc := ⟨.hbm, 64, rfl⟩
abbrev main_v45 : Ref sig .tc := ⟨.hbm, 65, rfl⟩
abbrev main_v46 : Ref sig .tc := ⟨.hbm, 66, rfl⟩
abbrev main_c_6 : Ref sig .tc := ⟨.hbm, 67, rfl⟩
abbrev main_v47 : Ref sig .tc := ⟨.hbm, 68, rfl⟩
abbrev main_v48 : Ref sig .tc := ⟨.hbm, 69, rfl⟩
abbrev main_c_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_8 : Ref sig .tc := ⟨.hbm, 77, rfl⟩
abbrev main_v55 : Ref sig .tc := ⟨.hbm, 78, rfl⟩
abbrev main_v56 : Ref sig .tc := ⟨.hbm, 79, rfl⟩
abbrev main_c_9 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]

class Facts₀ : Prop where
  transposes_S1024x512_S512x1024_1_0 : S1024x512.Transposes [1, 0] S512x1024
  bcast_S1024_S1x1024_1 : S1024.BroadcastsInDim S1x1024 (![1] : Fin 1 → Fin S1x1024.rank)
  bcast_S1x1024_S5000x1024_0_1 : S1x1024.BroadcastsInDim S5000x1024 (![0, 1] : Fin 2 → Fin S5000x1024.rank)
  bcast_S_S5000x1024 : S_.BroadcastsInDim S5000x1024 (![] : Fin 0 → Fin S5000x1024.rank)
  slices_S5000x1024_S5000x512_0_0 : S5000x1024.Slices ![0, 0] S5000x512
  slices_S5000x1024_S5000x512_0_512 : S5000x1024.Slices ![0, 512] S5000x512
  slices_S20000x2_S20000x1_0_0 : S20000x2.Slices ![0, 0] S20000x1
  shapeCasts_S20000x1_S20000 : S20000x1.ShapeCasts S20000
  slices_S20000x2_S20000x1_0_1 : S20000x2.Slices ![0, 1] S20000x1
  bcast_S_S20000 : S_.BroadcastsInDim S20000 (![] : Fin 0 → Fin S20000.rank)
  bcast_S20000_S20000x1_0 : S20000.BroadcastsInDim S20000x1 (![0] : Fin 1 → Fin S20000x1.rank)
  concatenates_S20000x512_S20000x512_S20000x1024_d1 : Shape.Concatenates [S20000x512, S20000x512] S20000x1024 1
  transposes_S4096x1024_S1024x4096_1_0 : S4096x1024.Transposes [1, 0] S1024x4096
  bcast_S4096_S1x4096_1 : S4096.BroadcastsInDim S1x4096 (![1] : Fin 1 → Fin S1x4096.rank)
  bcast_S1x4096_S20000x4096_0_1 : S1x4096.BroadcastsInDim S20000x4096 (![0, 1] : Fin 2 → Fin S20000x4096.rank)
  transposes_S51x4096_S4096x51_1_0 : S51x4096.Transposes [1, 0] S4096x51
  bcast_S51_S1x51_1 : S51.BroadcastsInDim S1x51 (![1] : Fin 1 → Fin S1x51.rank)
  bcast_S1x51_S20000x51_0_1 : S1x51.BroadcastsInDim S20000x51 (![0, 1] : Fin 2 → Fin S20000x51.rank)
  dot_S5000x512_S512x1024_S5000x1024_1_0_0_1_n_n_wf : DotDims.WF S5000x512 S512x1024 S5000x1024 [1] [0] [0] [1] [] []
  gather_S5000x512_S20000x1_S20000x512_1_0_n_n_0_1_1512_wf : GatherDims.WF S5000x512 S20000x1 S20000x512 [1] [0] [] [0] [] 1 ![1, 512]
  dot_S20000x1024_S1024x4096_S20000x4096_1_0_0_1_n_n_wf : DotDims.WF S20000x1024 S1024x4096 S20000x4096 [1] [0] [0] [1] [] []
  dot_S20000x4096_S4096x51_S20000x51_1_0_0_1_n_n_wf : DotDims.WF S20000x4096 S4096x51 S20000x51 [1] [0] [0] [1] [] []
  gather_S5000_S20000x1_S20000_n_0_n_n_0_1_1_wf : GatherDims.WF S5000 S20000x1 S20000 [] [0] [] [0] [] 1 ![1]
  gather_S22801x51_S20000x1_S20000x51_1_0_n_n_0_1_151_wf : GatherDims.WF S22801x51 S20000x1 S20000x51 [1] [0] [] [0] [] 1 ![1, 51]

variable [Facts₀]

def dot_S5000x512_S512x1024_S5000x1024_1_0_0_1_n_n : DotDims S5000x512 S512x1024 S5000x1024 where
  lhsContracting := [1]
  rhsContracting := [0]
  lhsNonContracting := [0]
  rhsNonContracting := [1]
  lhsBatch := []
  rhsBatch := []
  wf := dot_S5000x512_S512x1024_S5000x1024_1_0_0_1_n_n_wf
def gather_S5000x512_S20000x1_S20000x512_1_0_n_n_0_1_1512 : GatherDims S5000x512 S20000x1 S20000x512 where
  offsetDims := [1]
  collapsedSliceDims := [0]
  operandBatchingDims := []
  startIndicesBatchingDims := []
  startIndexMap := [0]
  indexVectorDim := 1
  sliceSizes := ![1, 512]
  wf := gather_S5000x512_S20000x1_S20000x512_1_0_n_n_0_1_1512_wf
def dot_S20000x1024_S1024x4096_S20000x4096_1_0_0_1_n_n : DotDims S20000x1024 S1024x4096 S20000x4096 where
  lhsContracting := [1]
  rhsContracting := [0]
  lhsNonContracting := [0]
  rhsNonContracting := [1]
  lhsBatch := []
  rhsBatch := []
  wf := dot_S20000x1024_S1024x4096_S20000x4096_1_0_0_1_n_n_wf
def dot_S20000x4096_S4096x51_S20000x51_1_0_0_1_n_n : DotDims S20000x4096 S4096x51 S20000x51 where
  lhsContracting := [1]
  rhsContracting := [0]
  lhsNonContracting := [0]
  rhsNonContracting := [1]
  lhsBatch := []
  rhsBatch := []
  wf := dot_S20000x4096_S4096x51_S20000x51_1_0_0_1_n_n_wf
def gather_S5000_S20000x1_S20000_n_0_n_n_0_1_1 : GatherDims S5000 S20000x1 S20000 where
  offsetDims := []
  collapsedSliceDims := [0]
  operandBatchingDims := []
  startIndicesBatchingDims := []
  startIndexMap := [0]
  indexVectorDim := 1
  sliceSizes := ![1]
  wf := gather_S5000_S20000x1_S20000_n_0_n_n_0_1_1_wf
def gather_S22801x51_S20000x1_S20000x51_1_0_n_n_0_1_151 : GatherDims S22801x51 S20000x1 S20000x51 where
  offsetDims := [1]
  collapsedSliceDims := [0]
  operandBatchingDims := []
  startIndicesBatchingDims := []
  startIndexMap := [0]
  indexVectorDim := 1
  sliceSizes := ![1, 51]
  wf := gather_S22801x51_S20000x1_S20000x51_1_0_n_n_0_1_151_wf

class Facts : Prop extends Facts₀ where

variable [Facts]
-- ==== Proof.KernelRun.lean ====
/-
  The idealized kernel's whole run with its result named.

  The program is two kernel launches among stretches of host operations. Its run is the chain of those segments:
  every weakly fair execution ends with each buffer at the contents the last segment leaves. The generated frame
  reads the argument arrays out of that last state; here the same chain is read at the result array as well, so
  that the result is the second launch's output array as the segments leave it.
-/
import proofs.«143439_j42365557408495_2_alg».proof.Proof.Gen.KernelIdeal.Frame

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends, without a fault, with the result array at what the second launch leaves in it
    and every argument array as launched. -/
theorem run_result : θ_run defs (onTc (τ := τ) (main (F := F))) ⟨m, fun _ => 0, ρ⟩ (fun r => ∀ c : Dev nD,
      r.2.mem ((c.tc : Thread nD τ).loc main_v52) = W6 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v52 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Run

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«143439_j42365557408495_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTileOps.lean ====
/-
  The layout chains of a tile body, read at an entry.

  A body that works on an `[a, b]` tile against per-column parameters meets a handful of chains of layout
  operations again and again: a `[b]` vector recast to the row `[1, b]` and broadcast down the tile's rows; one row of a
  `[m, b]` block sliced out, flattened, recast and broadcast the same way; one `[1, a, b]` slab of an `[m, a, b]` stack
  loaded through its rectangle and recast to the matrix `[a, b]`; a row sum recast to a column and broadcast across the
  tile's columns. Each lemma reads one chain at the entry `(p, c)` as the operand at the evident index.
-/
import Idealize.ShloMosaic.PureOps.Ideal.Laws
import Idealize.ShloMosaic.Lib.ValueIdx
import Idealize.ShloMosaic.Lib.ValueLayout
import Idealize.ShloMosaic.Lib.Pipeline.Value
import proofs.«143439_j42365557408495_2_alg».proof.Proof.LibRowOps

namespace Hmu.Lib

open Idealize.ShloMosaic Idealize.ShloMosaic.ValueIdx

variable {a b m : ℕ} {α : Type}

/-- A `[b]` vector recast to the row `[1, b]` and broadcast over `[a, b]` reads, at `(p, c)`, the vector at `c`. -/
theorem rowVec_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The same with a cast of the vector to its own shape first. -/
theorem rowVec_self_apply (v : (⟨1, ![b]⟩ : Shape).Idx → α) (h0 : (⟨1, ![b]⟩ : Shape).ShapeCasts ⟨1, ![b]⟩)
    (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h0) h1) h2 (ix2 p c) = v (ix1 c) := by
  rw [shapeCast_self]; exact rowVec_apply v h1 h2 p c

/-- Row `k` of an `[m, b]` block, sliced out as `[1, b]` at the literal offset `o = k`, flattened to `[b]`, recast to `[1, b]` and
    broadcast over `[a, b]`, reads at `(p, c)` the block at `(k, c)`. -/
theorem blockRow_apply (v : (⟨2, ![m, b]⟩ : Shape).Idx → α) (o : ℕ) (k : Fin m) (hk : k.val = o)
    (hs : (⟨2, ![m, b]⟩ : Shape).Slices ![o, 0] ⟨2, ![1, b]⟩)
    (h0 : (⟨2, ![1, b]⟩ : Shape).ShapeCasts ⟨1, ![b]⟩) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ (extractStridedSlice ⟨2, ![1, b]⟩ ![o, 0] v hs) h0) h1) h2 (ix2 p c)
      = v (ix2 k c) :=
  (rowVec_apply _ h1 h2 p c).trans <| (shapeCast_1a_a_apply _ h0 c).trans <|
    slice2_axis0_apply o v hs (0 : Fin 1) c k (by simp [hk])

/-- A row sum of an `[a, b]` tile, recast to the column `[a, 1]` and broadcast over `[a, b]`, reads at `(p, c)` the sum of
    row `p`. -/
theorem rowSumCol_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ v 0x00000000#32 h hφ hacc) h1) h2 (ix2 p c)
      = ∑ k : Fin b, v (ix2 p k) :=
  (Gcn.Lib.broadcastTo_a1_ab_apply _ h2 p c).trans <| (Gcn.Lib.shapeCast_a_a1_apply _ h1 p 0).trans <|
    Gcn.Lib.rowSum_apply v h hφ hacc p

/-- Slab `k` of an `[m, a, b]` stack, loaded through the rectangle of extents `[1, a, b]` at the literal offsets `[o, 0, 0]`,
    `o = k`, reads at `(0, i, j)` the stack at `(k, i, j)`. -/
theorem ld_slab {Val : EltTy → Type} {e : EltTy} (x : (⟨3, ![m, a, b]⟩ : Shape).Idx → Val e) (o : ℕ) (k : Fin m) (hk : k.val = o)
    (inb : ∀ ax, (![o, 0, 0] : Fin 3 → ℕ) ax + (⟨3, ![1, a, b]⟩ : Shape).size ax ≤ (⟨3, ![m, a, b]⟩ : Shape).size ax)
    (i : Fin a) (j : Fin b) :
    View.ld (Val := Val) x (Rect.unit (s := ⟨3, ![m, a, b]⟩) ![o, 0, 0] (⟨3, ![1, a, b]⟩ : Shape).size inb) (ix3 (0 : Fin 1) i j)
      = x (ix3 k i j) := by
  show x ((Rect.unit (s := ⟨3, ![m, a, b]⟩) ![o, 0, 0] (⟨3, ![1, a, b]⟩ : Shape).size inb).idx (ix3 (0 : Fin 1) i j)) = _
  refine congrArg x (funext fun ax => Fin.ext ?_)
  match ax with
  | ⟨0, _⟩ => show o + 1 * 0 = k.val; omega
  | ⟨1, _⟩ => show 0 + 1 * i.val = i.val; omega
  | ⟨2, _⟩ => show 0 + 1 * j.val = j.val; omega

end Hmu.Lib
-- ==== Proof.LibFusedTile.lean ====
/-
  Tile bodies of a projection network read at an entry of their output tile, every extent generic.

  rectProj_apply: a tile of rows times a weight matrix (the matrix unit accumulating into zero under any printed plain
  record), plus a bias row recast [w] → [1, w] and broadcast down the tile, rectified against the splat of the f32 zero word:
  at (p, q) it is max (∑ k, x (p, k) · W (k, q) + b q) 0.
  fused_apply: two tiles times two weight matrices, summed, plus a bias row, times a third tile entry by entry, times a last
  matrix, plus a bias row, plus a last tile: at (p, q) it is
  ((∑ j, (((∑ k, hd (p, k) · wh (k, j)) + (∑ k, tl (p, k) · wt (k, j))) + bp j) · u (p, j)) · wc (j, q)) + bc q) + fr (p, q).
  colSlice_apply: a band of n columns of an [a, w] tile starting at column o read at (p, q) as the tile at (p, o + q).
  On the extended reals a matrix product accumulated into zero is the plain sum and a change of float format the identity.
-/
import proofs.«143439_j42365557408495_2_alg».proof.Proof.LibDotRecord
import proofs.«143439_j42365557408495_2_alg».proof.Proof.LibTileOps
import Idealize.ShloMosaic.Lib.Pipeline.Value

noncomputable section

namespace FusedTile

open Idealize.ShloMosaic Idealize.ShloMosaic.ValueIdx

/-- A band of n columns of an [a, w] tile starting at column o reads, at (p, q), the tile at (p, o + q). -/
theorem colSlice_apply {a w n : ℕ} {α : Type} (x : (⟨2, ![a, w]⟩ : Shape).Idx → α) (o : ℕ)
    (h : (⟨2, ![a, w]⟩ : Shape).Slices ![0, o] ⟨2, ![a, n]⟩) (p : Fin a) (q : Fin n) (q' : Fin w) (hq : q'.val = o + q.val) :
    extractStridedSlice ⟨2, ![a, n]⟩ ![0, o] x h (ix2 p q) = x (ix2 p q') := by
  refine extractStridedSlice_apply ![0, o] x h (ix2 p q) (ix2 p q') fun c => ?_
  match c with
  | ⟨0, _⟩ => show p.val = 0 + p.val; omega
  | ⟨1, _⟩ => exact hq

/-- Rows times a weight matrix, plus a bias row, rectified, at (p, q). -/
theorem rectProj_apply {a n w : ℕ} {φ₁ φ₂ : FTy} (d : DotDims ⟨2, ![a, n]⟩ ⟨2, ![n, w]⟩ ⟨2, ![a, w]⟩)
    (hd1 : d.lhsContracting = [1]) (hd2 : d.rhsContracting = [0]) (hd3 : d.lhsNonContracting = [0])
    (hd4 : d.rhsNonContracting = [1]) (hd5 : d.lhsBatch = []) (hd6 : d.rhsBatch = [])
    (x : FVec Ideal ⟨2, ![a, n]⟩ φ₁) (W : FVec Ideal ⟨2, ![n, w]⟩ φ₂) (b : FVec Ideal ⟨1, ![w]⟩ .f32)
    (prec : Option ContractPrecision) (hb1 : (⟨1, ![w]⟩ : Shape).ShapeCasts ⟨2, ![1, w]⟩)
    (hb2 : (⟨2, ![1, w]⟩ : Shape).Broadcasts ⟨2, ![a, w]⟩) (p : Fin a) (q : Fin w) :
    maximumf (addf (FloatOps.matmul d prec x W (constant ⟨2, ![a, w]⟩ .f32 0x00000000#32))
        (broadcastTo ⟨2, ![a, w]⟩ (shapeCast ⟨2, ![1, w]⟩ b hb1) hb2))
      (broadcast ⟨2, ![a, w]⟩ (Scalar.ofBits (F := Ideal) .f32 0x00000000#32)) (ix2 p q)
    = max ((∑ k : Fin n, x (ix2 p k) * W (ix2 k q)) + b (ix1 q)) 0 := by
  rw [maximumf_apply, addf_apply, broadcast_apply, DotRecord.matmul_zero_apply d hd1 hd2 hd3 hd4 hd5 hd6,
    Hmu.Lib.rowVec_apply]
  exact congrArg (max _) Ideal.ofBits_zero_f32

/-- The fused pair projection, feature product, class projection and bias at (p, q). -/
theorem fused_apply {a n h c : ℕ} {φ₁ φ₂ : FTy} (d : DotDims ⟨2, ![a, n]⟩ ⟨2, ![n, h]⟩ ⟨2, ![a, h]⟩)
    (hd1 : d.lhsContracting = [1]) (hd2 : d.rhsContracting = [0]) (hd3 : d.lhsNonContracting = [0])
    (hd4 : d.rhsNonContracting = [1]) (hd5 : d.lhsBatch = []) (hd6 : d.rhsBatch = [])
    (e : DotDims ⟨2, ![a, h]⟩ ⟨2, ![h, c]⟩ ⟨2, ![a, c]⟩)
    (he1 : e.lhsContracting = [1]) (he2 : e.rhsContracting = [0]) (he3 : e.lhsNonContracting = [0])
    (he4 : e.rhsNonContracting = [1]) (he5 : e.lhsBatch = []) (he6 : e.rhsBatch = [])
    (hd tl : FVec Ideal ⟨2, ![a, n]⟩ φ₁) (wh wt : FVec Ideal ⟨2, ![n, h]⟩ φ₂) (bp : FVec Ideal ⟨1, ![h]⟩ .f32)
    (u : FVec Ideal ⟨2, ![a, h]⟩ .f32) (wc : FVec Ideal ⟨2, ![h, c]⟩ .f32) (bc : FVec Ideal ⟨1, ![c]⟩ .f32)
    (fr : FVec Ideal ⟨2, ![a, c]⟩ .f32) (prec₁ prec₂ : Option ContractPrecision)
    (hp1 : (⟨1, ![h]⟩ : Shape).ShapeCasts ⟨2, ![1, h]⟩) (hp2 : (⟨2, ![1, h]⟩ : Shape).Broadcasts ⟨2, ![a, h]⟩)
    (hc1 : (⟨1, ![c]⟩ : Shape).ShapeCasts ⟨2, ![1, c]⟩) (hc2 : (⟨2, ![1, c]⟩ : Shape).Broadcasts ⟨2, ![a, c]⟩)
    (p : Fin a) (q : Fin c) :
    addf (addf (FloatOps.matmul e prec₂
          (mulf (addf (addf (FloatOps.matmul d prec₁ hd wh (constant ⟨2, ![a, h]⟩ .f32 0x00000000#32))
                (FloatOps.matmul d prec₁ tl wt (constant ⟨2, ![a, h]⟩ .f32 0x00000000#32)))
              (broadcastTo ⟨2, ![a, h]⟩ (shapeCast ⟨2, ![1, h]⟩ bp hp1) hp2)) u)
          wc (constant ⟨2, ![a, c]⟩ .f32 0x00000000#32))
        (broadcastTo ⟨2, ![a, c]⟩ (shapeCast ⟨2, ![1, c]⟩ bc hc1) hc2)) fr (ix2 p q)
    = ((∑ j : Fin h, ((((∑ k : Fin n, hd (ix2 p k) * wh (ix2 k j)) + (∑ k : Fin n, tl (ix2 p k) * wt (ix2 k j)))
            + bp (ix1 j)) * u (ix2 p j)) * wc (ix2 j q)) + bc (ix1 q)) + fr (ix2 p q) := by
  rw [addf_apply, addf_apply, DotRecord.matmul_zero_apply e he1 he2 he3 he4 he5 he6, Hmu.Lib.rowVec_apply]
  refine congrArg (· + fr (ix2 p q)) (congrArg (· + bc (ix1 q)) (Finset.sum_congr rfl fun j _ => ?_))
  rw [mulf_apply, addf_apply, addf_apply, DotRecord.matmul_zero_apply d hd1 hd2 hd3 hd4 hd5 hd6,
    DotRecord.matmul_zero_apply d hd1 hd2 hd3 hd4 hd5 hd6, Hmu.Lib.rowVec_apply]

end FusedTile

end
-- ==== Proof.Spec.lean ====
/-
  The function both programs compute, entry by entry, on the extended reals.

  An object row n of the edge context is projected and rectified: emb n q = max (∑ k, x0 (n, k) · x2 (q, k) + x3 q) 0,
  for the 1024 output columns q. A relation r names two objects, nd r 0 (the subject) and nd r 1 (the object): the
  signed index word at (r, j), read as a natural number and kept inside the 5000 rows. The subject contributes the
  first 512 columns of its embedding, the object the last 512 of its own; the pair is projected to 4096 features,

    pr r j = (∑ k<512, emb (nd r 0) k · x4 (j, k)) + (∑ k<512, emb (nd r 1) (512+k) · x4 (j, 512+k)) + x5 j,

  multiplied entry by entry by the union features x1, projected to the 51 relation classes by x6, shifted by x7,
  and the frequency bias frq (r, c) is added:

    G r c = ((∑ j, (pr r j · x1 (r, j)) · x6 (c, j)) + x7 c) + frq (r, c).

  Only sums and products in a fixed order occur, so nothing here asks the inputs to be finite.
-/
import Idealize.ShloMosaic.PureOps.Ideal
import Idealize.ShloMosaic.Lib.ValueIdx

noncomputable section

namespace PairScore

open Idealize.ShloMosaic Idealize.ShloMosaic.ValueIdx

/-- Column k of the first half of the 1024 embedding columns. -/
def lo (k : Fin 512) : Fin 1024 := ⟨k.val, by omega⟩
/-- Column k of the second half of the 1024 embedding columns. -/
def hi (k : Fin 512) : Fin 1024 := ⟨512 + k.val, by omega⟩

/-- The object a relation's endpoint j names: its signed index word as a natural number, kept below 5000. -/
def nd (x10 : (⟨2, ![20000, 2]⟩ : Shape).Idx → BitVec 32) (r : Fin 20000) (j : Fin 2) : Fin 5000 :=
  ⟨min (x10 (ix2 r j)).toInt.toNat 4999, by omega⟩

/-- The rectified projection of object row n at output column q. -/
def emb (x0 : (⟨2, ![5000, 512]⟩ : Shape).Idx → EReal) (x2 : (⟨2, ![1024, 512]⟩ : Shape).Idx → EReal)
    (x3 : (⟨1, ![1024]⟩ : Shape).Idx → EReal) (n : Fin 5000) (q : Fin 1024) : EReal :=
  max ((∑ k : Fin 512, x0 (ix2 n k) * x2 (ix2 q k)) + x3 (ix1 q)) 0

/-- The pair projection of relation r at feature j: subject half, object half, bias. -/
def pr (x0 : (⟨2, ![5000, 512]⟩ : Shape).Idx → EReal) (x2 : (⟨2, ![1024, 512]⟩ : Shape).Idx → EReal)
    (x3 : (⟨1, ![1024]⟩ : Shape).Idx → EReal) (x4 : (⟨2, ![4096, 1024]⟩ : Shape).Idx → EReal)
    (x5 : (⟨1, ![4096]⟩ : Shape).Idx → EReal) (x10 : (⟨2, ![20000, 2]⟩ : Shape).Idx → BitVec 32)
    (r : Fin 20000) (j : Fin 4096) : EReal :=
  ((∑ k : Fin 512, emb x0 x2 x3 (nd x10 r 0) (lo k) * x4 (ix2 j (lo k)))
    + (∑ k : Fin 512, emb x0 x2 x3 (nd x10 r 1) (hi k) * x4 (ix2 j (hi k)))) + x5 (ix1 j)

/-- The score of relation r for class c. -/
def G (x0 : (⟨2, ![5000, 512]⟩ : Shape).Idx → EReal) (x1 : (⟨2, ![20000, 4096]⟩ : Shape).Idx → EReal)
    (x2 : (⟨2, ![1024, 512]⟩ : Shape).Idx → EReal) (x3 : (⟨1, ![1024]⟩ : Shape).Idx → EReal)
    (x4 : (⟨2, ![4096, 1024]⟩ : Shape).Idx → EReal) (x5 : (⟨1, ![4096]⟩ : Shape).Idx → EReal)
    (x6 : (⟨2, ![51, 4096]⟩ : Shape).Idx → EReal) (x7 : (⟨1, ![51]⟩ : Shape).Idx → EReal)
    (x10 : (⟨2, ![20000, 2]⟩ : Shape).Idx → BitVec 32) (frq : (⟨2, ![20000, 51]⟩ : Shape).Idx → EReal)
    (r : Fin 20000) (c : Fin 51) : EReal :=
  ((∑ j : Fin 4096, (pr x0 x2 x3 x4 x5 x10 r j * x1 (ix2 r j)) * x6 (ix2 c j)) + x7 (ix1 c)) + frq (ix2 r c)

end PairScore

end
-- ==== Proof.K0Pay.lean ====
/-
  The first kernel body at an entry of its stored tiles.

  The body multiplies a tile of 1280 rows by the transposed weight matrix, adds the bias row and rectifies; it stores the
  first 512 columns of the result in one tile and the last 512 in another. At (p, q) the first is
  max (∑ k, x0 (p, k) · x1 (k, q) + x2 q) 0 and the second the same at column 512 + q.
-/
import proofs.«143439_j42365557408495_2_alg».proof.Proof.Gen.KernelIdeal.Skeleton
import proofs.«143439_j42365557408495_2_alg».proof.Proof.LibFusedTile
import proofs.«143439_j42365557408495_2_alg».proof.Proof.Spec

set_option maxRecDepth 16384

noncomputable section

namespace PairScore.K0Pay

open Idealize.ShloMosaic Idealize.ShloMosaic.ValueIdx
open Cert.KernelIdeal Cert.KernelIdeal.Gen

/-- The body's rectified tile at (p, q). -/
theorem pay1_at (x0 : Vec Ideal S1280x512 .f32) (x1 : Vec Ideal S512x1024 .f32) (x2 : Vec Ideal S1024 .f32)
    (p : Fin 1280) (q : Fin 1024) :
    k0_pay1 (F := Ideal) x0 x1 x2 (ix2 p q) = max ((∑ k : Fin 512, x0 (ix2 p k) * x1 (ix2 k q)) + x2 (ix1 q)) 0 := by
  unfold k0_pay1
  simp only [shapeCast_self]
  exact FusedTile.rectProj_apply _ rfl rfl rfl rfl rfl rfl x0 x1 x2 _ _ _ p q

/-- The first stored tile is the first band of the rectified tile, narrowed (the identity on the extended reals). -/
theorem pay2_def (x0 : Vec Ideal S1280x512 .f32) (x1 : Vec Ideal S512x1024 .f32) (x2 : Vec Ideal S1024 .f32) :
    k0_pay2 (F := Ideal) x0 x1 x2 = truncf .bf16 (extractStridedSlice S1280x512 ![0, 0] (k0_pay1 (F := Ideal) x0 x1 x2)
      slices_S1280x1024_o0_0_S1280x512) bitsLt_bf16_f32 := rfl

/-- The second stored tile is the second band. -/
theorem pay3_def (x0 : Vec Ideal S1280x512 .f32) (x1 : Vec Ideal S512x1024 .f32) (x2 : Vec Ideal S1024 .f32) :
    k0_pay3 (F := Ideal) x0 x1 x2 = truncf .bf16 (extractStridedSlice S1280x512 ![0, 512] (k0_pay1 (F := Ideal) x0 x1 x2)
      slices_S1280x1024_o0_512_S1280x512) bitsLt_bf16_f32 := rfl

/-- The first stored tile at (p, q). -/
theorem pay2_at (x0 : Vec Ideal S1280x512 .f32) (x1 : Vec Ideal S512x1024 .f32) (x2 : Vec Ideal S1024 .f32)
    (p : Fin 1280) (q : Fin 512) :
    k0_pay2 (F := Ideal) x0 x1 x2 (ix2 p q)
      = max ((∑ k : Fin 512, x0 (ix2 p k) * x1 (ix2 k (lo q))) + x2 (ix1 (lo q))) 0 := by
  rw [pay2_def]
  exact (FusedTile.colSlice_apply (k0_pay1 (F := Ideal) x0 x1 x2) 0 slices_S1280x1024_o0_0_S1280x512 p q (lo q)
    (by show q.val = 0 + q.val; omega)).trans (pay1_at x0 x1 x2 p (lo q))

/-- The second stored tile at (p, q). -/
theorem pay3_at (x0 : Vec Ideal S1280x512 .f32) (x1 : Vec Ideal S512x1024 .f32) (x2 : Vec Ideal S1024 .f32)
    (p : Fin 1280) (q : Fin 512) :
    k0_pay3 (F := Ideal) x0 x1 x2 (ix2 p q)
      = max ((∑ k : Fin 512, x0 (ix2 p k) * x1 (ix2 k (hi q))) + x2 (ix1 (hi q))) 0 := by
  rw [pay3_def]
  exact (FusedTile.colSlice_apply (k0_pay1 (F := Ideal) x0 x1 x2) 512 slices_S1280x1024_o0_512_S1280x512 p q (hi q)
    rfl).trans (pay1_at x0 x1 x2 p (hi q))

end PairScore.K0Pay

end
-- ==== Proof.K0Value.lean ====
/-
  What the first launch leaves in its two output arrays.

  The first launch walks the 5120 padded rows in 4 tiles of 1280. Each tile is multiplied by the whole transposed weight
  matrix, the bias row is added, the result is rectified, and its first 512 columns go to the first output array, its
  last 512 to the second. The tiles cover the arrays, so after the launch the first array holds, at (p, q),
  max (∑ k, X (p, k) · WT (k, q) + b q) 0 and the second the same at column 512 + q, where X, WT and b are the arrays the
  launch finds in its three input buffers.
-/
import proofs.«143439_j42365557408495_2_alg».proof.Proof.Gen.KernelIdeal.Frame
import proofs.«143439_j42365557408495_2_alg».proof.Proof.K0Pay

set_option maxRecDepth 16384

noncomputable section

namespace PairScore.K0

open Idealize.ShloMosaic Idealize.ShloMosaic.ValueIdx Idealize.ShloMosaic.TcCoe Idealize.SL.Sem
open Cert.KernelIdeal Cert.KernelIdeal.Gen
open Idealize.ShloMosaic.Pipeline (Dat)

/-- The rectified projection of padded row p at output column q. -/
def proj (X : S5120x512.Idx → EReal) (WT : S512x1024.Idx → EReal) (b : S1024.Idx → EReal) (p : Fin 5120) (q : Fin 1024) : EReal :=
  max ((∑ k : Fin 512, X (ix2 p k) * WT (ix2 k q)) + b (ix1 q)) 0

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The first output array as one function of the arrays the launch finds. -/
def head (c : Dev nD) : S5120x512.Idx → EReal := fun i =>
  proj (V c main_v0) (V c main_v1) (V c main_arg3) ⟨(i 0).val, (i 0).isLt⟩ (lo ⟨(i 1).val, (i 1).isLt⟩)

/-- The second output array as one function of the arrays the launch finds. -/
def tail (c : Dev nD) : S5120x512.Idx → EReal := fun i =>
  proj (V c main_v0) (V c main_v1) (V c main_arg3) ⟨(i 0).val, (i 0).isLt⟩ (hi ⟨(i 1).val, (i 1).isLt⟩)

/-- The printed index maps over the grid: tile t of the rows and of both outputs is block t; the weights and the bias
    are whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What tile t writes back to output 3 is block t of `head`. -/
theorem flushed3_eq (c : Dev nD) (t : Fin cfg0.N) :
    (dat0 V c).flushed 3 t = ((cfg0.win 3).blk t).view.read (Elt Ideal) (head V c) := by
  show (cfg0.win 3).cut (grid0.coords t) ((dat0 V c).after 3 t) = _
  rw [after0_3]
  unfold out0_3
  rw [View.canon_unit_zero hz]
  simp only [View.ld_unit_zero (S := S1280x512) hz, View.ld_unit_zero (S := S512x1024) hz, View.ld_unit_zero (S := S1024) hz1]
  obtain ⟨e0, e1, e2, e3, e4, e5, e6, e7, e8⟩ := idx_facts t
  have ht : t.val < 4 := t.isLt
  funext j
  obtain ⟨p, q, rfl⟩ : ∃ (p : Fin 1280) (q : Fin 512), j = ix2 p q := ⟨j 0, j 1, eq_ix2 j⟩
  refine (K0Pay.pay2_at _ _ _ p q).trans ?_
  have hlt : t.val * 1280 + p.val < 5120 := by have := p.isLt; omega
  show _ = head V c (((cfg0.win 3).blk t).view.emb (ix2 p q))
  have hE : ((cfg0.win 3).blk t).view.emb (ix2 p q) = (ix2 (⟨t.val * 1280 + p.val, hlt⟩ : Fin 5120) q : S5120x512.Idx) := by
    funext a; apply Fin.ext
    match a with
    | ⟨0, _⟩ => show win0_3.index t (0 : Fin 2) * 1280 + 1 * p.val = t.val * 1280 + p.val; omega
    | ⟨1, _⟩ => show win0_3.index t (1 : Fin 2) * 512 + 1 * q.val = q.val; omega
  rw [hE]
  show _ = proj (V c main_v0) (V c main_v1) (V c main_arg3) ⟨t.val * 1280 + p.val, hlt⟩ (lo q)
  unfold proj
  refine congrArg (fun z => max z 0) (congrArg₂ (· + ·) (Finset.sum_congr rfl fun k _ => congrArg₂ (· * ·) ?_ ?_) ?_)
  · show V c main_v0 (((cfg0.win 0).blk t).view.emb (ix2 p k)) = _
    refine congrArg (V c main_v0) (funext fun a => Fin.ext ?_)
    match a with
    | ⟨0, _⟩ => show win0_0.index t (0 : Fin 2) * 1280 + 1 * p.val = t.val * 1280 + p.val; omega
    | ⟨1, _⟩ => show win0_0.index t (1 : Fin 2) * 512 + 1 * k.val = k.val; omega
  · show V c main_v1 (((cfg0.win 1).blk t).view.emb (ix2 k (lo q))) = _
    refine congrArg (V c main_v1) (funext fun a => Fin.ext ?_)
    match a with
    | ⟨0, _⟩ => show win0_1.index t (0 : Fin 2) * 512 + 1 * k.val = k.val; omega
    | ⟨1, _⟩ => show win0_1.index t (1 : Fin 2) * 1024 + 1 * (lo q).val = (lo q).val; omega
  · show V c main_arg3 (((cfg0.win 2).blk t).view.emb (ix1 (lo q))) = _
    refine congrArg (V c main_arg3) (funext fun a => Fin.ext ?_)
    match a with
    | ⟨0, _⟩ => show win0_2.index t (0 : Fin 1) * 1024 + 1 * (lo q).val = (lo q).val; omega

/-- An index of output 3's array is in tile t's block iff each coordinate is in the block's range. -/
theorem mem_blk3 (t : Fin cfg0.N) (i : S5120x512.Idx) :
    i ∈ ((cfg0.win 3).blk t).view.set ↔ ∀ a : Fin 2, win0_3.index t a * S1280x512.size a ≤ (i a).val ∧ (i a).val < win0_3.index t a * S1280x512.size a + S1280x512.size a := by
  show i ∈ ((View.whole main_v2_0).slice (win0_3.rect t)).set ↔ _
  rw [View.set_slice_whole, Rect.mem_set_unit]
  exact Iff.rfl

/-- Every index of output 3's array lies in the block of the tile its row falls in. -/
theorem cover3 (i : S5120x512.Idx) :
    ∃ t : Fin cfg0.N, (cfg0.win 3).flush t = true ∧ i ∈ ((cfg0.win 3).blk t).view.set := by
  have hi0 : (i 0).val < 5120 := (i 0).isLt
  have hi1 : (i 1).val < 512 := (i 1).isLt
  let t : Fin cfg0.N := ⟨(i 0).val / 1280, by show (i 0).val / 1280 < 4; omega⟩
  obtain ⟨e0, e1, e2, e3, e4, e5, e6, e7, e8⟩ := idx_facts t
  have htv : t.val = (i 0).val / 1280 := rfl
  refine ⟨t, flush0_3 t, ?_⟩
  rw [mem_blk3]
  intro a
  match a with
  | ⟨0, _⟩ => show win0_3.index t (0 : Fin 2) * 1280 ≤ (i 0).val ∧ (i 0).val < win0_3.index t (0 : Fin 2) * 1280 + 1280; omega
  | ⟨1, _⟩ => show win0_3.index t (1 : Fin 2) * 512 ≤ (i 1).val ∧ (i 1).val < win0_3.index t (1 : Fin 2) * 512 + 512; omega

/-- After the launch output 3's array is `head`. -/
theorem final3 (c : Dev nD) : (dat0 V c).arrAt 3 cfg0.N = head V c :=
  (dat0 V c).arrAt_eq_of_cover 3 (head V c) (fun t _ => flushed3_eq V c t) (cover3)

/-- What tile t writes back to output 4 is block t of `tail`. -/
theorem flushed4_eq (c : Dev nD) (t : Fin cfg0.N) :
    (dat0 V c).flushed 4 t = ((cfg0.win 4).blk t).view.read (Elt Ideal) (tail V c) := by
  show (cfg0.win 4).cut (grid0.coords t) ((dat0 V c).after 4 t) = _
  rw [after0_4]
  unfold out0_4
  rw [View.canon_unit_zero hz]
  simp only [View.ld_unit_zero (S := S1280x512) hz, View.ld_unit_zero (S := S512x1024) hz, View.ld_unit_zero (S := S1024) hz1]
  obtain ⟨e0, e1, e2, e3, e4, e5, e6, e7, e8⟩ := idx_facts t
  have ht : t.val < 4 := t.isLt
  funext j
  obtain ⟨p, q, rfl⟩ : ∃ (p : Fin 1280) (q : Fin 512), j = ix2 p q := ⟨j 0, j 1, eq_ix2 j⟩
  refine (K0Pay.pay3_at _ _ _ p q).trans ?_
  have hlt : t.val * 1280 + p.val < 5120 := by have := p.isLt; omega
  show _ = tail V c (((cfg0.win 4).blk t).view.emb (ix2 p q))
  have hE : ((cfg0.win 4).blk t).view.emb (ix2 p q) = (ix2 (⟨t.val * 1280 + p.val, hlt⟩ : Fin 5120) q : S5120x512.Idx) := by
    funext a; apply Fin.ext
    match a with
    | ⟨0, _⟩ => show win0_4.index t (0 : Fin 2) * 1280 + 1 * p.val = t.val * 1280 + p.val; omega
    | ⟨1, _⟩ => show win0_4.index t (1 : Fin 2) * 512 + 1 * q.val = q.val; omega
  rw [hE]
  show _ = proj (V c main_v0) (V c main_v1) (V c main_arg3) ⟨t.val * 1280 + p.val, hlt⟩ (hi q)
  unfold proj
  refine congrArg (fun z => max z 0) (congrArg₂ (· + ·) (Finset.sum_congr rfl fun k _ => congrArg₂ (· * ·) ?_ ?_) ?_)
  · show V c main_v0 (((cfg0.win 0).blk t).view.emb (ix2 p k)) = _
    refine congrArg (V c main_v0) (funext fun a => Fin.ext ?_)
    match a with
    | ⟨0, _⟩ => show win0_0.index t (0 : Fin 2) * 1280 + 1 * p.val = t.val * 1280 + p.val; omega
    | ⟨1, _⟩ => show win0_0.index t (1 : Fin 2) * 512 + 1 * k.val = k.val; omega
  · show V c main_v1 (((cfg0.win 1).blk t).view.emb (ix2 k (hi q))) = _
    refine congrArg (V c main_v1) (funext fun a => Fin.ext ?_)
    match a with
    | ⟨0, _⟩ => show win0_1.index t (0 : Fin 2) * 512 + 1 * k.val = k.val; omega
    | ⟨1, _⟩ => show win0_1.index t (1 : Fin 2) * 1024 + 1 * (hi q).val = (hi q).val; omega
  · show V c main_arg3 (((cfg0.win 2).blk t).view.emb (ix1 (hi q))) = _
    refine congrArg (V c main_arg3) (funext fun a => Fin.ext ?_)
    match a with
    | ⟨0, _⟩ => show win0_2.index t (0 : Fin 1) * 1024 + 1 * (hi q).val = (hi q).val; omega

/-- An index of output 4's array is in tile t's block iff each coordinate is in the block's range. -/
theorem mem_blk4 (t : Fin cfg0.N) (i : S5120x512.Idx) :
    i ∈ ((cfg0.win 4).blk t).view.set ↔ ∀ a : Fin 2, win0_4.index t a * S1280x512.size a ≤ (i a).val ∧ (i a).val < win0_4.index t a * S1280x512.size a + S1280x512.size a := by
  show i ∈ ((View.whole main_v2_1).slice (win0_4.rect t)).set ↔ _
  rw [View.set_slice_whole, Rect.mem_set_unit]
  exact Iff.rfl

/-- Every index of output 4's array lies in the block of the tile its row falls in. -/
theorem cover4 (i : S5120x512.Idx) :
    ∃ t : Fin cfg0.N, (cfg0.win 4).flush t = true ∧ i ∈ ((cfg0.win 4).blk t).view.set := by
  have hi0 : (i 0).val < 5120 := (i 0).isLt
  have hi1 : (i 1).val < 512 := (i 1).isLt
  let t : Fin cfg0.N := ⟨(i 0).val / 1280, by show (i 0).val / 1280 < 4; omega⟩
  obtain ⟨e0, e1, e2, e3, e4, e5, e6, e7, e8⟩ := idx_facts t
  have htv : t.val = (i 0).val / 1280 := rfl
  refine ⟨t, flush0_4 t, ?_⟩
  rw [mem_blk4]
  intro a
  match a with
  | ⟨0, _⟩ => show win0_4.index t (0 : Fin 2) * 1280 ≤ (i 0).val ∧ (i 0).val < win0_4.index t (0 : Fin 2) * 1280 + 1280; omega
  | ⟨1, _⟩ => show win0_4.index t (1 : Fin 2) * 512 ≤ (i 1).val ∧ (i 1).val < win0_4.index t (1 : Fin 2) * 512 + 512; omega

/-- After the launch output 4's array is `tail`. -/
theorem final4 (c : Dev nD) : (dat0 V c).arrAt 4 cfg0.N = tail V c :=
  (dat0 V c).arrAt_eq_of_cover 4 (tail V c) (fun t _ => flushed4_eq V c t) (cover4)

end PairScore.K0

end
-- ==== Proof.MidA.lean ====
/-
  The arrays the first launch finds, and its output rows at the objects a relation names.

  Before the first launch the host pads the 5000 object rows with 120 zero rows and transposes the embedding weights;
  the bias is passed as it is. A row n < 5000 of the padded array is row n of the argument, so the first launch's
  output rows below 5000 are the rectified projections of the argument's rows: at (n, k) the first output array
  holds emb n k and the second emb n (512 + k). The argument arrays themselves reach the second launch unchanged.
-/
import proofs.«143439_j42365557408495_2_alg».proof.Proof.Gen.KernelIdeal.Frame
import proofs.«143439_j42365557408495_2_alg».proof.Proof.K0Value
import proofs.«143439_j42365557408495_2_alg».proof.Proof.Spec
import Idealize.ShloMosaic.Lib.StableHlo.Run
import Idealize.ShloMosaic.Lib.KernelVsHost
import Idealize.ShloMosaic.Lib.ValueLayout

set_option maxRecDepth 16384

noncomputable section

namespace PairScore.Mid

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- Argument 0 as launched, as an array over its shape. -/
abbrev A0 (c : Dev nD) : S5000x512.Idx → EReal := m ((c : Thread nD τ).loc main_arg0)
/-- Argument 1 as launched, as an array over its shape. -/
abbrev A1 (c : Dev nD) : S20000x4096.Idx → EReal := m ((c : Thread nD τ).loc main_arg1)
/-- Argument 2 as launched, as an array over its shape. -/
abbrev A2 (c : Dev nD) : S1024x512.Idx → EReal := m ((c : Thread nD τ).loc main_arg2)
/-- Argument 3 as launched, as an array over its shape. -/
abbrev A3 (c : Dev nD) : S1024.Idx → EReal := m ((c : Thread nD τ).loc main_arg3)
/-- Argument 4 as launched, as an array over its shape. -/
abbrev A4 (c : Dev nD) : S4096x1024.Idx → EReal := m ((c : Thread nD τ).loc main_arg4)
/-- Argument 5 as launched, as an array over its shape. -/
abbrev A5 (c : Dev nD) : S4096.Idx → EReal := m ((c : Thread nD τ).loc main_arg5)
/-- Argument 6 as launched, as an array over its shape. -/
abbrev A6 (c : Dev nD) : S51x4096.Idx → EReal := m ((c : Thread nD τ).loc main_arg6)
/-- Argument 7 as launched, as an array over its shape. -/
abbrev A7 (c : Dev nD) : S51.Idx → EReal := m ((c : Thread nD τ).loc main_arg7)
/-- Argument 8 as launched, as an array over its shape. -/
abbrev A8 (c : Dev nD) : S22801x51.Idx → EReal := m ((c : Thread nD τ).loc main_arg8)
/-- Argument 9 as launched, as an array over its shape. -/
abbrev A9 (c : Dev nD) : S5000.Idx → BitVec 32 := m ((c : Thread nD τ).loc main_arg9)
/-- Argument 10 as launched, as an array over its shape. -/
abbrev A10 (c : Dev nD) : S20000x2.Idx → BitVec 32 := m ((c : Thread nD τ).loc main_arg10)

/-- The first launch finds the object rows padded below with 120 rows of the padding value. -/
theorem v3_rows (c : Dev nD) : (V3 (F := Ideal) m ρ c main_v0 : S5120x512.Idx → EReal)
    = pad S5120x512 ![0, 0] ![120, 0] ![0, 0] (A0 m c) (sitofp (F := Ideal) .f32 (constantI S_ 32 0#32))
        pads_S5000x512_S5120x512_01200_000 h_S_ := by
  show StableHlo.after hostOps0_2 (StableHlo.after hostOps0_1 (StableHlo.after hostOps0 (W0 (F := Ideal) m ρ c))) (Proc.devRef .tc main_v0) = _
  after_results <;> rfl

/-- The first launch finds the embedding weights transposed. -/
theorem v3_wT (c : Dev nD) : (V3 (F := Ideal) m ρ c main_v1 : S512x1024.Idx → EReal)
    = transpose S512x1024 [1, 0] (A2 m c) transposes_S1024x512_S512x1024_1_0 := by
  show StableHlo.after hostOps0_2 (StableHlo.after hostOps0_1 (StableHlo.after hostOps0 (W0 (F := Ideal) m ρ c))) (Proc.devRef .tc main_v1) = _
  after_results <;> rfl

/-- The first launch finds the embedding bias as launched. -/
theorem v3_bias (c : Dev nD) : (V3 (F := Ideal) m ρ c main_arg3 : S1024.Idx → EReal) = (A3 m c) := by
  show StableHlo.after hostOps0_2 (StableHlo.after hostOps0_1 (StableHlo.after hostOps0 (W0 (F := Ideal) m ρ c))) (Proc.devRef .tc main_arg3) = _
  after_results <;> rfl

theorem w4_arg1 (c : Dev nD) : (W4 (F := Ideal) m ρ c (Proc.devRef .tc main_arg1) : S20000x4096.Idx → EReal) = (A1 m c) := by
  refine (W4_of_ne m ρ c main_arg1 (by decide)).trans ?_
  show StableHlo.after hostOps0_2 (StableHlo.after hostOps0_1 (StableHlo.after hostOps0 (W0 (F := Ideal) m ρ c))) (Proc.devRef .tc main_arg1) = _
  after_results <;> rfl

theorem w4_arg4 (c : Dev nD) : (W4 (F := Ideal) m ρ c (Proc.devRef .tc main_arg4) : S4096x1024.Idx → EReal) = (A4 m c) := by
  refine (W4_of_ne m ρ c main_arg4 (by decide)).trans ?_
  show StableHlo.after hostOps0_2 (StableHlo.after hostOps0_1 (StableHlo.after hostOps0 (W0 (F := Ideal) m ρ c))) (Proc.devRef .tc main_arg4) = _
  after_results <;> rfl

theorem w4_arg5 (c : Dev nD) : (W4 (F := Ideal) m ρ c (Proc.devRef .tc main_arg5) : S4096.Idx → EReal) = (A5 m c) := by
  refine (W4_of_ne m ρ c main_arg5 (by decide)).trans ?_
  show StableHlo.after hostOps0_2 (StableHlo.after hostOps0_1 (StableHlo.after hostOps0 (W0 (F := Ideal) m ρ c))) (Proc.devRef .tc main_arg5) = _
  after_results <;> rfl

theorem w4_arg6 (c : Dev nD) : (W4 (F := Ideal) m ρ c (Proc.devRef .tc main_arg6) : S51x4096.Idx → EReal) = (A6 m c) := by
  refine (W4_of_ne m ρ c main_arg6 (by decide)).trans ?_
  show StableHlo.after hostOps0_2 (StableHlo.after hostOps0_1 (StableHlo.after hostOps0 (W0 (F := Ideal) m ρ c))) (Proc.devRef .tc main_arg6) = _
  after_results <;> rfl

theorem w4_arg7 (c : Dev nD) : (W4 (F := Ideal) m ρ c (Proc.devRef .tc main_arg7) : S51.Idx → EReal) = (A7 m c) := by
  refine (W4_of_ne m ρ c main_arg7 (by decide)).trans ?_
  show StableHlo.after hostOps0_2 (StableHlo.after hostOps0_1 (StableHlo.after hostOps0 (W0 (F := Ideal) m ρ c))) (Proc.devRef .tc main_arg7) = _
  after_results <;> rfl

theorem w4_arg8 (c : Dev nD) : (W4 (F := Ideal) m ρ c (Proc.devRef .tc main_arg8) : S22801x51.Idx → EReal) = (A8 m c) := by
  refine (W4_of_ne m ρ c main_arg8 (by decide)).trans ?_
  show StableHlo.after hostOps0_2 (StableHlo.after hostOps0_1 (StableHlo.after hostOps0 (W0 (F := Ideal) m ρ c))) (Proc.devRef .tc main_arg8) = _
  after_results <;> rfl

theorem w4_arg9 (c : Dev nD) : (W4 (F := Ideal) m ρ c (Proc.devRef .tc main_arg9) : S5000.Idx → BitVec 32) = (A9 m c) := by
  refine (W4_of_ne m ρ c main_arg9 (by decide)).trans ?_
  show StableHlo.after hostOps0_2 (StableHlo.after hostOps0_1 (StableHlo.after hostOps0 (W0 (F := Ideal) m ρ c))) (Proc.devRef .tc main_arg9) = _
  after_results <;> rfl

theorem w4_arg10 (c : Dev nD) : (W4 (F := Ideal) m ρ c (Proc.devRef .tc main_arg10) : S20000x2.Idx → BitVec 32) = (A10 m c) := by
  refine (W4_of_ne m ρ c main_arg10 (by decide)).trans ?_
  show StableHlo.after hostOps0_2 (StableHlo.after hostOps0_1 (StableHlo.after hostOps0 (W0 (F := Ideal) m ρ c))) (Proc.devRef .tc main_arg10) = _
  after_results <;> rfl

/-- Row n < 5000 of the padded-row projection is the projection of the argument's row n. -/
theorem proj_at (c : Dev nD) (n : Fin 5000) (q : Fin 1024) (hn : n.val < 5120) :
    K0.proj (V3 (F := Ideal) m ρ c main_v0) (V3 (F := Ideal) m ρ c main_v1) (V3 (F := Ideal) m ρ c main_arg3) ⟨n.val, hn⟩ q
      = PairScore.emb (A0 m c) (A2 m c) (A3 m c) n q := by
  unfold K0.proj PairScore.emb
  refine congrArg (fun z => max z 0) (congrArg₂ (· + ·) (Finset.sum_congr rfl fun j _ => congrArg₂ (· * ·) ?_ ?_) ?_)
  · refine (congrFun (v3_rows m ρ c) (ix2 (⟨n.val, hn⟩ : Fin 5120) j)).trans ?_
    exact pad_apply_of_inside ![0, 0] ![120, 0] ![0, 0] (A0 m c) _ pads_S5000x512_S5120x512_01200_000 h_S_
      (ix2 (⟨n.val, hn⟩ : Fin 5120) j) (ix2 n j) (fun a => match a with
        | ⟨0, _⟩ => by show n.val = 0 + n.val * (0 + 1); omega
        | ⟨1, _⟩ => by show j.val = 0 + j.val * (0 + 1); omega)
  · refine (congrFun (v3_wT m ρ c) (ix2 j q)).trans ?_
    exact transpose_ix2_apply (A2 m c) transposes_S1024x512_S512x1024_1_0 j q
  · exact congrFun (v3_bias m ρ c) (ix1 q)

/-- The first output array at an object row. -/
theorem head_at (c : Dev nD) (n : Fin 5000) (k : Fin 512) (hn : n.val < 5120) :
    K0.head (V3 (F := Ideal) m ρ) c (ix2 (⟨n.val, hn⟩ : Fin 5120) k)
      = PairScore.emb (A0 m c) (A2 m c) (A3 m c) n (lo k) :=
  proj_at m ρ c n (lo k) hn

/-- The second output array at an object row. -/
theorem tail_at (c : Dev nD) (n : Fin 5000) (k : Fin 512) (hn : n.val < 5120) :
    K0.tail (V3 (F := Ideal) m ρ) c (ix2 (⟨n.val, hn⟩ : Fin 5120) k)
      = PairScore.emb (A0 m c) (A2 m c) (A3 m c) n (hi k) :=
  proj_at m ρ c n (hi k) hn

/-- After the first launch its first output buffer holds `head`, its second `tail`. -/
theorem w4_head (c : Dev nD) : (W4 (F := Ideal) m ρ c (Proc.devRef .tc main_v2_0) : S5120x512.Idx → EReal) = K0.head (V3 (F := Ideal) m ρ) c :=
  (W4_arr m ρ c 3).trans (K0.final3 (V3 (F := Ideal) m ρ) c)
theorem w4_tail (c : Dev nD) : (W4 (F := Ideal) m ρ c (Proc.devRef .tc main_v2_1) : S5120x512.Idx → EReal) = K0.tail (V3 (F := Ideal) m ρ) c :=
  (W4_arr m ρ c 4).trans (K0.final4 (V3 (F := Ideal) m ρ) c)

end PairScore.Mid

end
-- ==== Proof.LibGatherScatter.lean ====
/-
  The host's gather and accumulating scatter along axis 0, read at an index.

  A flat array x : [N] or a table x : [N, C] is gathered at a column idx : [E, 1] of start indices (what x[idx] lowers to), and
  updates u : [E] or u : [E, C] are accumulated into such an operand at the rows the column names (what x.at[idx].add(u)
  lowers to). The lemmas hold for ANY dimension-number record of the right type whose lists are the ones this lowering prints;
  the hypotheses on the record's fields are closed by rfl on a printed record.
-/
import Idealize.ShloMosaic.PureOps.Ideal
import Idealize.ShloMosaic.PureOps.Contract
import Idealize.ShloMosaic.Lib.ValueIdx

noncomputable section

open scoped BigOperators

namespace Pegcn.Lib

open Idealize.ShloMosaic Idealize.ShloMosaic.ValueIdx

/-! ## Gather along axis 0 -/

/-- The gather's dimension numbers for an operand [N], start indices [E, 1] and result [E], as an explicit record. -/
private abbrev gDims1 (N E : Nat) (sb : List (Fin (Shape.rank ⟨2, ![E, 1]⟩)))
    (wf : GatherDims.WF ⟨1, ![N]⟩ ⟨2, ![E, 1]⟩ ⟨1, ![E]⟩ [] [0] [] [0] sb 1 ![1]) :
    GatherDims ⟨1, ![N]⟩ ⟨2, ![E, 1]⟩ ⟨1, ![E]⟩ where
  offsetDims := []
  collapsedSliceDims := [0]
  operandBatchingDims := []
  startIndicesBatchingDims := sb
  startIndexMap := [0]
  indexVectorDim := 1
  sliceSizes := ![1]
  wf := wf

/-- The rank-1 gather at the explicit record. -/
private theorem gather1_core {α : Type} {N E w : Nat} (hN : 0 < N) (sb : List (Fin (Shape.rank ⟨2, ![E, 1]⟩)))
    (wf : GatherDims.WF ⟨1, ![N]⟩ ⟨2, ![E, 1]⟩ ⟨1, ![E]⟩ [] [0] [] [0] sb 1 ![1])
    (x : (⟨1, ![N]⟩ : Shape).Idx → α) (idx : IVec ⟨2, ![E, 1]⟩ w) (e : Fin E) :
    Host.gather (gDims1 N E sb wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (gDims1 N E sb wf).start (ix1 e) idx 0 + (gDims1 N E sb wf).batchCoord (ix1 e) 0
    + (gDims1 N E sb wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gDims1 N E sb wf).startIndexMap from List.mem_singleton.mpr rfl)]
  have hsi : (gDims1 N E sb wf).siIdx (ix1 e) ⟨List.idxOf (0 : Fin 1) (gDims1 N E sb wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- A rank-1 operand x : [N] gathered at a column idx : [E, 1] of start indices (collapsed axis 0, start index map [0], the
    index vector on axis 1, slices of one element): result element e is x at the start index idx[e, 0], read as a signed
    integer and clamped into [0, N - 1]. -/
theorem gather1_apply {α : Type} {N E w : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsm : d.startIndexMap = [0]) (hiv : d.indexVectorDim = 1) (hss : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  obtain ⟨od, cd, ob, sb, sm, iv, ss, wf⟩ := d
  simp only at hod hcd hob hsm hiv hss
  subst hod hcd hob hsm hiv hss
  exact gather1_core hN sb wf x idx e

/-- Of a rank-2 shape's two axes, the one that is not axis 0 is axis 1. -/
private theorem kept2_0 :
    (List.finRange 2).filter (fun a : Fin 2 => decide (a ∉ ([0] ++ [] : List (Fin 2)))) = ([1] : List (Fin 2)) := by
  decide

/-- The gather's dimension numbers for an operand [N, C], start indices [E, 1] and result [E, C], as an explicit record. -/
private abbrev gDims2 (N E C : Nat) (sb : List (Fin (Shape.rank ⟨2, ![E, 1]⟩)))
    (wf : GatherDims.WF ⟨2, ![N, C]⟩ ⟨2, ![E, 1]⟩ ⟨2, ![E, C]⟩ [1] [0] [] [0] sb 1 ![1, C]) :
    GatherDims ⟨2, ![N, C]⟩ ⟨2, ![E, 1]⟩ ⟨2, ![E, C]⟩ where
  offsetDims := [1]
  collapsedSliceDims := [0]
  operandBatchingDims := []
  startIndicesBatchingDims := sb
  startIndexMap := [0]
  indexVectorDim := 1
  sliceSizes := ![1, C]
  wf := wf

/-- The row gather at the explicit record. -/
private theorem gather2_core {α : Type} {N E C w : Nat} (hN : 0 < N) (sb : List (Fin (Shape.rank ⟨2, ![E, 1]⟩)))
    (wf : GatherDims.WF ⟨2, ![N, C]⟩ ⟨2, ![E, 1]⟩ ⟨2, ![E, C]⟩ [1] [0] [] [0] sb 1 ![1, C])
    (x : (⟨2, ![N, C]⟩ : Shape).Idx → α) (idx : IVec ⟨2, ![E, 1]⟩ w) (e : Fin E) (j : Fin C) :
    Host.gather (gDims2 N E C sb wf) x idx (ix2 e j)
      = x (ix2 ⟨min (idx (ix2 e 0)).toInt.toNat (N - 1), by omega⟩ j) := by
  unfold Host.gather
  congr 1
  funext a
  refine Fin.ext ?_
  show (gDims2 N E C sb wf).start (ix2 e j) idx a + (gDims2 N E C sb wf).batchCoord (ix2 e j) a
    + (gDims2 N E C sb wf).offCoord (ix2 e j) a = _
  rw [GatherDims.batchCoord_eq_zero _ _ _ List.not_mem_nil]
  have ha : a = 0 ∨ a = 1 := by
    rcases a with ⟨v, hv⟩
    have hv' : v < 2 := hv
    rcases (by omega : v = 0 ∨ v = 1) with rfl | rfl
    · exact Or.inl rfl
    · exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gDims2 N E C sb wf).startIndexMap from List.mem_singleton.mpr rfl)]
    have hsi : (gDims2 N E C sb wf).siIdx (ix2 e j) ⟨List.idxOf (0 : Fin 2) (gDims2 N E C sb wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · have h1 : (1 : Fin 2) ∉ (gDims2 N E C sb wf).startIndexMap := by
      intro h; exact absurd (congrArg Fin.val (List.mem_singleton.mp h)) Nat.one_ne_zero
    have hk : (gDims2 N E C sb wf).sKept = [1] := by
      exact kept2_0
    have hget : ∀ (k : Nat) (hk : k < 1), ([1] : List (Fin 2))[k] = 1 := by
      intro k hk; obtain rfl : k = 0 := by omega
      rfl
    unfold GatherDims.start GatherDims.offCoord
    rw [dif_neg h1, dif_pos (by rw [hk]; exact List.mem_singleton.mpr rfl)]
    rw [hget]
    simp only [Nat.zero_add]
    rfl

/-- A table x : [N, C] gathered by rows at a column idx : [E, 1] of start indices (offset axis 1, collapsed axis 0, start
    index map [0], the index vector on axis 1, slices of one whole row): result element (e, j) is x at row idx[e, 0], read as
    a signed integer and clamped into [0, N - 1], column j. -/
theorem gather2_apply {α : Type} {N E C w : Nat} (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsm : d.startIndexMap = [0]) (hiv : d.indexVectorDim = 1) (hss : d.sliceSizes = ![1, C])
    (x : (⟨2, ![N, C]⟩ : Shape).Idx → α) (idx : IVec ⟨2, ![E, 1]⟩ w) (e : Fin E) (j : Fin C) :
    Host.gather d x idx (ix2 e j) = x (ix2 ⟨min (idx (ix2 e 0)).toInt.toNat (N - 1), by omega⟩ j) := by
  obtain ⟨od, cd, ob, sb, sm, iv, ss, wf⟩ := d
  simp only at hod hcd hob hsm hiv hss
  subst hod hcd hob hsm hiv hss
  exact gather2_core hN sb wf x idx e j

/-! ## Where an update lands -/

/-- An update lands at operand index i exactly when, on every operand axis, the start read signed off the scatter indices plus
    the window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro hi a
      have hi' := congrFun (Option.some.inj hi) a
      have hv : (d.start j idx a + (d.window j a : Int)).toNat = (i a).val := congrArg Fin.val hi'
      have := h a
      omega
    · intro hi
      congr 1
      funext a
      refine Fin.ext ?_
      have := hi a
      have := h a
      show (d.start j idx a + (d.window j a : Int)).toNat = (i a).val
      omega
  · rename_i h
    constructor
    · intro hi
      exact absurd hi (by simp)
    · intro hi
      exfalso
      apply h
      intro a
      have := hi a
      have := (i a).isLt
      omega

/-- The scatter's dimension numbers for an operand [N], scatter indices [E, 1] and updates [E], as an explicit record. -/
private abbrev sDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The rank-1 landing condition at the explicit record. -/
private theorem scatter1_core {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (sDims1 N E wf).resultIdx? (ix1 e) idx = some (ix1 n) ↔ (idx (ix2 e 0)).toInt = (n.val : Int) := by
  have hs : (sDims1 N E wf).start (ix1 e) idx 0 = (idx (ix2 e 0)).toInt := by
    unfold ScatterDims.start
    rw [dif_pos (show (0 : Fin 1) ∈ (sDims1 N E wf).scatterDimsToOperandDims from List.mem_singleton.mpr rfl)]
    have hsi : (sDims1 N E wf).siIdx (ix1 e) ⟨List.idxOf (0 : Fin 1) (sDims1 N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw : (sDims1 N E wf).window (ix1 e) 0 = 0 := by
    unfold ScatterDims.window
    rw [dif_neg (by simp [Shape.kept])]
  rw [resultIdx?_eq_some_iff]
  constructor
  · intro h
    have h0 : _ = ((n.val : Nat) : Int) := h 0
    rw [hs, hw] at h0
    simpa using h0
  · intro h a
    obtain rfl : a = 0 := Subsingleton.elim _ _
    show _ = ((n.val : Nat) : Int)
    rw [hs, hw, h]
    simp

/-- Updates u : [E] scattered into an operand [N] at a column idx : [E, 1] of scatter indices (no window axes, inserted axis 0,
    the index vector on axis 1): update e lands at element n exactly when its index idx[e, 0], read as a signed integer and
    NOT clamped, is n; an index outside [0, N) lands nowhere. -/
theorem scatter1_lands_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (idx : IVec ⟨2, ![E, 1]⟩ w) (e : Fin E) (n : Fin N) :
    d.resultIdx? (ix1 e) idx = some (ix1 n) ↔ (idx (ix2 e 0)).toInt = (n.val : Int) := by
  obtain ⟨uw, iw, sd, iv, wf⟩ := d
  simp only at huw hiw hsd hiv
  subst huw hiw hsd hiv
  exact scatter1_core wf idx e n

/-- The scatter's dimension numbers for an operand [N, C], scatter indices [E, 1] and updates [E, C], as an explicit record. -/
private abbrev sDims2 (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Of a rank-2 shape's two axes, the one that is not the inserted axis 0 is axis 1. -/
private theorem kept2_0' :
    (List.finRange 2).filter (fun a : Fin 2 => decide (a ∉ ([0] : List (Fin 2)))) = ([1] : List (Fin 2)) := by
  decide

/-- The row landing condition at the explicit record. -/
private theorem scatter2_core {N E C w : Nat} (wf : ScatterDims.WF ⟨2, ![N, C]⟩ ⟨2, ![E, 1]⟩ ⟨2, ![E, C]⟩ [1] [0] [0] 1)
    (idx : IVec ⟨2, ![E, 1]⟩ w) (e : Fin E) (j' : Fin C) (n : Fin N) (j : Fin C) :
    (sDims2 N E C wf).resultIdx? (ix2 e j') idx = some (ix2 n j)
      ↔ (idx (ix2 e 0)).toInt = (n.val : Int) ∧ j' = j := by
  have hs0 : (sDims2 N E C wf).start (ix2 e j') idx 0 = (idx (ix2 e 0)).toInt := by
    unfold ScatterDims.start
    rw [dif_pos (show (0 : Fin 2) ∈ (sDims2 N E C wf).scatterDimsToOperandDims from List.mem_singleton.mpr rfl)]
    have hsi : (sDims2 N E C wf).siIdx (ix2 e j') ⟨List.idxOf (0 : Fin 2) (sDims2 N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (sDims2 N E C wf).window (ix2 e j') 0 = 0 := by
    unfold ScatterDims.window
    rw [dif_neg (by simp [Shape.kept])]
  have hs1 : (sDims2 N E C wf).start (ix2 e j') idx 1 = 0 := by
    unfold ScatterDims.start
    rw [dif_neg (fun h => absurd (congrArg Fin.val (List.mem_singleton.mp h)) Nat.one_ne_zero)]
  have hw1 : (sDims2 N E C wf).window (ix2 e j') 1 = j'.val := by
    have hk : (sDims2 N E C wf).sKept = [1] := kept2_0'
    have hget : ∀ (k : Nat) (hk : k < 1), ([1] : List (Fin 2))[k] = 1 := by
      intro k hk; obtain rfl : k = 0 := by omega
      rfl
    unfold ScatterDims.window
    rw [dif_pos (by rw [hk]; exact List.mem_singleton.mpr rfl), hget]
  rw [resultIdx?_eq_some_iff]
  constructor
  · intro h
    have h0 : _ = ((n.val : Nat) : Int) := h 0
    have h1 : _ = ((j.val : Nat) : Int) := h 1
    rw [hs0, hw0] at h0
    rw [hs1, hw1] at h1
    exact ⟨by simpa using h0, Fin.ext (by omega)⟩
  · rintro ⟨h, rfl⟩ a
    have ha : a = 0 ∨ a = 1 := by
      rcases a with ⟨v, hv⟩
      have hv' : v < 2 := hv
      rcases (by omega : v = 0 ∨ v = 1) with rfl | rfl
      · exact Or.inl rfl
      · exact Or.inr rfl
    rcases ha with rfl | rfl
    · show _ = ((n.val : Nat) : Int)
      rw [hs0, hw0, h]
      simp
    · show _ = ((j'.val : Nat) : Int)
      rw [hs1, hw1]
      simp

/-- Update rows u : [E, C] scattered into a table [N, C] at a column idx : [E, 1] of scatter indices (window axis 1, inserted
    axis 0, the index vector on axis 1): update element (e, j') lands at element (n, j) exactly when its row index idx[e, 0],
    read as a signed integer and NOT clamped, is n and the columns agree; an index outside [0, N) lands nowhere. -/
theorem scatter2_lands_iff {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (idx : IVec ⟨2, ![E, 1]⟩ w) (e : Fin E) (j' : Fin C) (n : Fin N) (j : Fin C) :
    d.resultIdx? (ix2 e j') idx = some (ix2 n j) ↔ (idx (ix2 e 0)).toInt = (n.val : Int) ∧ j' = j := by
  obtain ⟨uw, iw, sd, iv, wf⟩ := d
  simp only at huw hiw hsd hiv
  subst huw hiw hsd hiv
  exact scatter2_core wf idx e j' n j

/-! ## The accumulating scatter at an index -/

/-- The accumulating scatter of updates u : [E] into x : [N] at a column idx : [E, 1] of indices, read at element n at the ideal
    instance: x at n plus the sum of the updates whose index idx[e, 0], read as a signed integer, is n. The sum runs over
    the updates' own index type. -/
theorem scatterAdd1_apply {N E w : Nat} {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (x : FVec Ideal ⟨1, ![N]⟩ φ) (idx : IVec ⟨2, ![E, 1]⟩ w)
    (upd : FVec Ideal ⟨1, ![E]⟩ φ) (n : Fin N) :
    Host.scatterAdd d x idx upd (ix1 n)
      = x (ix1 n) + ∑ j ∈ Finset.univ.filter
          (fun j : (⟨1, ![E]⟩ : Shape).Idx => (idx (ix2 (j 0) 0)).toInt = (n.val : Int)), upd j := by
  show Ideal.hostScatterAdd d x idx upd (ix1 n) = _
  unfold Ideal.hostScatterAdd
  congr 1
  refine Finset.sum_congr (Finset.filter_congr fun j _ => ?_) fun _ _ => rfl
  obtain ⟨e, rfl⟩ : ∃ e, j = ix1 e := ⟨j 0, eq_ix1 j⟩
  exact scatter1_lands_iff d huw hiw hsd hiv idx e n

/-- The accumulating scatter of update rows u : [E, C] into a table x : [N, C] at a column idx : [E, 1] of row indices, read at
    element (n, c) at the ideal instance: x at (n, c) plus the sum of the update elements in column c whose row index
    idx[e, 0], read as a signed integer, is n. The sum runs over the updates' own index type (the column condition is
    written on the coordinates' values). -/
theorem scatterAdd2_apply {N E C w : Nat} {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd d x idx upd (ix2 n c)
      = x (ix2 n c) + ∑ j ∈ Finset.univ.filter
          (fun j : (⟨2, ![E, C]⟩ : Shape).Idx =>
            (idx (ix2 (j 0) 0)).toInt = (n.val : Int) ∧ (j 1).val = c.val), upd j := by
  show Ideal.hostScatterAdd d x idx upd (ix2 n c) = _
  unfold Ideal.hostScatterAdd
  congr 1
  refine Finset.sum_congr (Finset.filter_congr fun j _ => ?_) fun _ _ => rfl
  obtain ⟨e, j', rfl⟩ : ∃ e j', j = ix2 e j' := ⟨j 0, j 1, eq_ix2 j⟩
  rw [scatter2_lands_iff d huw hiw hsd hiv idx e j' n c]
  show _ ∧ j' = c ↔ _ ∧ j'.val = c.val
  rw [Fin.ext_iff]
  exact Iff.rfl

/-! ## The wrap of a negative index before a gather

Before it gathers, x[idx] adds the operand's length to every negative index: select(idx < 0, idx + N, idx). On an index that is
not negative the wrap is the identity, and on one below the length the gather's clamp is the identity too. -/

/-- A word that is not negative as a signed integer is not signed-less-than the zero word. -/
theorem cmpi_slt_zero_of_nonneg {w : Nat} (x : BitVec w) (h : 0 ≤ x.toInt) : IntOp.cmpi .slt x 0#w = 0#1 := by
  have hslt : x.slt 0#w = false := by
    simp only [BitVec.slt, BitVec.toInt_zero, decide_eq_false_iff_not, not_lt]
    exact h
  simp only [IntOp.cmpi, hslt]
  rfl

/-- The wrap on one word: a word that is not negative is kept, whatever is added on the other branch. -/
theorem wrap_of_nonneg {w : Nat} (x c : BitVec w) (h : 0 ≤ x.toInt) :
    Scalar.select (IntOp.cmpi .slt x 0#w) (IntOp.addi x c) x = x := by
  rw [cmpi_slt_zero_of_nonneg x h]
  exact select_zero _ _

/-- The wrap on a vector of indices read at an index e: where the compared vector z reads zero and v is not negative, the
    wrapped vector reads v. -/
theorem wrap_apply {s : Shape} {w : Nat} (v z c : IVec s w) (e : s.Idx) (hz : z e = 0#w) (h : 0 ≤ (v e).toInt) :
    select (cmpi .slt v z) (addi v c) v e = v e := by
  show Scalar.select (IntOp.cmpi .slt (v e) (z e)) (IntOp.addi (v e) (c e)) (v e) = v e
  rw [hz]
  exact wrap_of_nonneg _ _ h

/-- The wrap as it is printed, the zero and the length being broadcast constants: at an index where v is not negative the
    wrapped vector reads v. -/
theorem wrap_bcast_apply {s0 s : Shape} {w : Nat} (dims : Fin s0.rank → Fin s.rank)
    (h0 h1 : s0.BroadcastsInDim s dims) (v : IVec s w) (c : BitVec w) (e : s.Idx) (h : 0 ≤ (v e).toInt) :
    select (cmpi .slt v (broadcastInDim s dims h0 (constantI s0 w 0#w)))
      (addi v (broadcastInDim s dims h1 (constantI s0 w c))) v e = v e :=
  wrap_apply v _ _ e rfl h

/-- The gather's clamp is the identity on a start index inside the operand. -/
theorem clamp_of_lt {w : Nat} (x : BitVec w) (N : Nat) (h0 : 0 ≤ x.toInt) (hN : x.toInt < (N : Int)) :
    min x.toInt.toNat (N - 1) = x.toInt.toNat := by
  omega

/-- The wrap then the clamp on one word inside the operand: both are the identity. -/
theorem clamp_wrap_of_lt {w : Nat} (x c : BitVec w) (N : Nat) (h0 : 0 ≤ x.toInt) (hN : x.toInt < (N : Int)) :
    min (Scalar.select (IntOp.cmpi .slt x 0#w) (IntOp.addi x c) x).toInt.toNat (N - 1) = x.toInt.toNat := by
  rw [wrap_of_nonneg x c h0]
  exact clamp_of_lt x N h0 hN

/-- The clamped start index as a coordinate: when the index word reads as the coordinate n, the clamped coordinate is n. -/
theorem clamp_fin_eq {N : Nat} (z : Int) (n : Fin N) (h : z = (n.val : Int)) (hlt : min z.toNat (N - 1) < N) :
    (⟨min z.toNat (N - 1), hlt⟩ : Fin N) = n := by
  refine Fin.ext ?_
  show min z.toNat (N - 1) = n.val
  have := n.isLt
  omega

end Pegcn.Lib

end
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.LibWrappedGather.lean ====
/-
  A row gather at a wrapped column of an index-pair array, read at an entry; every extent generic.

  col_at: column j of an [E, 2] array, cut out as [E, 1] and flattened to [E], reads at r the array at (r, j).
  rowGather_at: the host's gather of rows of an [N, C] operand at the [E, 1] index column obtained from column j of an
  [E, 2] array of 32-bit words by the negative-index wrap (select (v < 0) (v + c) v, the constants broadcast from scalars)
  and a broadcast [E] → [E, 1] reads, at (r, k) and where the word at (r, j) is not negative, the operand at row
  min (word as a natural number) (N − 1) and column k.
-/
import proofs.«143439_j42365557408495_2_alg».proof.Proof.LibGatherScatter
import proofs.«143439_j42365557408495_2_alg».proof.Proof.LibHostRead
import Idealize.ShloMosaic.Lib.Pipeline.Value

noncomputable section

namespace WrappedGather

open Idealize.ShloMosaic Idealize.ShloMosaic.ValueIdx

/-- Column j of an [E, 2] index array, flattened, at r. -/
theorem col_at {E : ℕ} {α : Type} (x : (⟨2, ![E, 2]⟩ : Shape).Idx → α) (o : ℕ) (j : Fin 2) (ho : j.val = o)
    (hs : (⟨2, ![E, 2]⟩ : Shape).Slices ![0, o] ⟨2, ![E, 1]⟩) (hc : (⟨2, ![E, 1]⟩ : Shape).ShapeCasts ⟨1, ![E]⟩) (r : Fin E) :
    shapeCast ⟨1, ![E]⟩ (extractStridedSlice ⟨2, ![E, 1]⟩ ![0, o] x hs) hc (ix1 r) = x (ix2 r j) := by
  refine (shapeCast_apply _ hc (ix1 r) (ix2 r (0 : Fin 1)) ?_).trans ?_
  · rewrite [Shape.rowMajor_val_two, Shape.rowMajor_val_one]
    show r.val * 1 + 0 = r.val
    omega
  · refine extractStridedSlice_apply ![0, o] x hs (ix2 r (0 : Fin 1)) (ix2 r j) fun a => ?_
    match a with
    | ⟨0, _⟩ => show r.val = 0 + r.val; omega
    | ⟨1, _⟩ => show j.val = o + 0; omega

/-- A row gather at the wrapped column j of the index pairs reads, where the index word is not negative, the row the
    word names (kept inside the operand's rows). -/
theorem rowGather_at {α : Type} {N E C : ℕ} (hN : 0 < N) (d : GatherDims ⟨2, ![N, C]⟩ ⟨2, ![E, 1]⟩ ⟨2, ![E, C]⟩)
    (hod : d.offsetDims = [1]) (hcd : d.collapsedSliceDims = [0]) (hob : d.operandBatchingDims = [])
    (hsm : d.startIndexMap = [0]) (hiv : d.indexVectorDim = 1) (hss : d.sliceSizes = ![1, C])
    (T : (⟨2, ![N, C]⟩ : Shape).Idx → α) (x10 : (⟨2, ![E, 2]⟩ : Shape).Idx → BitVec 32) (o : ℕ) (j : Fin 2) (ho : j.val = o)
    (cN : BitVec 32) (hs : (⟨2, ![E, 2]⟩ : Shape).Slices ![0, o] ⟨2, ![E, 1]⟩)
    (hc : (⟨2, ![E, 1]⟩ : Shape).ShapeCasts ⟨1, ![E]⟩) (h0 h1 : (⟨0, ![]⟩ : Shape).BroadcastsInDim ⟨1, ![E]⟩ ![])
    (hb : (⟨1, ![E]⟩ : Shape).BroadcastsInDim ⟨2, ![E, 1]⟩ (![0] : Fin 1 → Fin 2)) (r : Fin E) (k : Fin C)
    (hnn : 0 ≤ (x10 (ix2 r j)).toInt) :
    Host.gather d T (broadcastInDim ⟨2, ![E, 1]⟩ ![0] hb
        (select (cmpi .slt (shapeCast ⟨1, ![E]⟩ (extractStridedSlice ⟨2, ![E, 1]⟩ ![0, o] x10 hs) hc)
            (broadcastInDim ⟨1, ![E]⟩ ![] h0 (constantI ⟨0, ![]⟩ 32 0#32)))
          (addi (shapeCast ⟨1, ![E]⟩ (extractStridedSlice ⟨2, ![E, 1]⟩ ![0, o] x10 hs) hc)
            (broadcastInDim ⟨1, ![E]⟩ ![] h1 (constantI ⟨0, ![]⟩ 32 cN)))
          (shapeCast ⟨1, ![E]⟩ (extractStridedSlice ⟨2, ![E, 1]⟩ ![0, o] x10 hs) hc))) (ix2 r k)
      = T (ix2 ⟨min (x10 (ix2 r j)).toInt.toNat (N - 1), by omega⟩ k) := by
  have hcol := col_at x10 o j ho hs hc r
  rw [Pegcn.Lib.gather2_apply hN d hod hcd hob hsm hiv hss]
  have hidx : (broadcastInDim ⟨2, ![E, 1]⟩ ![0] hb
        (select (cmpi .slt (shapeCast ⟨1, ![E]⟩ (extractStridedSlice ⟨2, ![E, 1]⟩ ![0, o] x10 hs) hc)
            (broadcastInDim ⟨1, ![E]⟩ ![] h0 (constantI ⟨0, ![]⟩ 32 0#32)))
          (addi (shapeCast ⟨1, ![E]⟩ (extractStridedSlice ⟨2, ![E, 1]⟩ ![0, o] x10 hs) hc)
            (broadcastInDim ⟨1, ![E]⟩ ![] h1 (constantI ⟨0, ![]⟩ 32 cN)))
          (shapeCast ⟨1, ![E]⟩ (extractStridedSlice ⟨2, ![E, 1]⟩ ![0, o] x10 hs) hc))) (ix2 r 0) = x10 (ix2 r j) := by
    rw [Hmu.Lib.bcast_a_a1_apply]
    refine (Pegcn.Lib.wrap_bcast_apply _ h0 h1 _ cN (ix1 r) ?_).trans hcol
    rw [hcol]; exact hnn
  simp only [hidx]

end WrappedGather

end
-- ==== Proof.MidGather.lean ====
/-
  A row gather at a wrapped column of the relation index pairs, read at an entry, and the subject rows the second
  launch finds: the first launch's first output array gathered at the wrapped subject column.
-/
import proofs.«143439_j42365557408495_2_alg».proof.Proof.MidA
import proofs.«143439_j42365557408495_2_alg».proof.Proof.LibWrappedGather

set_option maxRecDepth 16384

noncomputable section

namespace PairScore.Mid

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The wrapped index column the host gathers at. -/
abbrev wrapCol (x10 : S20000x2.Idx → BitVec 32) (o : ℕ) (hs : S20000x2.Slices ![0, o] S20000x1) (cN : BitVec 32) : IVec S20000x1 32 :=
  broadcastInDim S20000x1 ![0] bcast_S20000_S20000x1_0
    (select (cmpi .slt (shapeCast S20000 (extractStridedSlice S20000x1 ![0, o] x10 hs) shapeCasts_S20000x1_S20000) (broadcastInDim S20000 ![] bcast_S_S20000 (constantI S_ 32 0#32)))
      (addi (shapeCast S20000 (extractStridedSlice S20000x1 ![0, o] x10 hs) shapeCasts_S20000x1_S20000) (broadcastInDim S20000 ![] bcast_S_S20000 (constantI S_ 32 cN)))
      (shapeCast S20000 (extractStridedSlice S20000x1 ![0, o] x10 hs) shapeCasts_S20000x1_S20000))

set_option maxHeartbeats 8000000 in
/-- The subject rows the second launch finds. -/
theorem v5_v13 (c : Dev nD) : (V5 (F := Ideal) m ρ c main_v13 : S20000x512.Idx → EReal)
    = Host.gather gather_S5120x512_S20000x1_S20000x512_1_0_n_n_0_1_1512 (K0.head (V3 (F := Ideal) m ρ) c)
        (wrapCol (A10 m c) 0 slices_S20000x2_S20000x1_0_0 5120#32) := by
  show StableHlo.after hostOps1 (W4 (F := Ideal) m ρ c) (Proc.devRef .tc main_v13) = _
  after_results
  rw [w4_arg10 m ρ c, w4_head m ρ c]
  rfl

end PairScore.Mid

end
-- ==== Proof.MidObject.lean ====
/-
  The object rows the second launch finds: the first launch's second output array gathered at the wrapped object column.
-/
import proofs.«143439_j42365557408495_2_alg».proof.Proof.MidGather

set_option maxRecDepth 16384

noncomputable section

namespace PairScore.Mid

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

set_option maxHeartbeats 8000000 in
/-- The object rows the second launch finds. -/
theorem v5_v20 (c : Dev nD) : (V5 (F := Ideal) m ρ c main_v20 : S20000x512.Idx → EReal)
    = Host.gather gather_S5120x512_S20000x1_S20000x512_1_0_n_n_0_1_1512 (K0.tail (V3 (F := Ideal) m ρ) c)
        (wrapCol (A10 m c) 1 slices_S20000x2_S20000x1_0_1 5120#32) := by
  show StableHlo.after hostOps1 (W4 (F := Ideal) m ρ c) (Proc.devRef .tc main_v20) = _
  after_results
  rw [w4_arg10 m ρ c, w4_tail m ρ c]
  rfl

end PairScore.Mid

end
-- ==== Proof.MidWeights.lean ====
/-
  The two halves of the pair weights the second launch finds: each a band of 512 columns of the argument, transposed,
  narrowed (the identity on the extended reals). At (k, j) they read the argument at (j, k) and (j, 512 + k).
-/
import proofs.«143439_j42365557408495_2_alg».proof.Proof.MidA
import proofs.«143439_j42365557408495_2_alg».proof.Proof.LibFusedTile

set_option maxRecDepth 16384

noncomputable section

namespace PairScore.Mid

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

set_option maxHeartbeats 8000000 in
/-- The subject half of the pair weights the second launch finds. -/
theorem v5_wh (c : Dev nD) : @Eq (S512x4096.Idx → EReal) (V5 (F := Ideal) m ρ c main_v47)
    (truncf (F := Ideal) .bf16 (transpose S512x4096 [1, 0] (extractStridedSlice S4096x512 ![0, 0] (A4 m c) slices_S4096x1024_S4096x512_0_0) transposes_S4096x512_S512x4096_1_0) bitsLt_bf16_f32) := by
  show StableHlo.after hostOps1 (W4 (F := Ideal) m ρ c) (Proc.devRef .tc main_v47) = _
  after_results
  rw [w4_arg4 m ρ c]

set_option maxHeartbeats 8000000 in
/-- The object half of the pair weights the second launch finds. -/
theorem v5_wt (c : Dev nD) : @Eq (S512x4096.Idx → EReal) (V5 (F := Ideal) m ρ c main_v50)
    (truncf (F := Ideal) .bf16 (transpose S512x4096 [1, 0] (extractStridedSlice S4096x512 ![0, 512] (A4 m c) slices_S4096x1024_S4096x512_0_512) transposes_S4096x512_S512x4096_1_0) bitsLt_bf16_f32) := by
  show StableHlo.after hostOps1 (W4 (F := Ideal) m ρ c) (Proc.devRef .tc main_v50) = _
  after_results
  rw [w4_arg4 m ρ c]

/-- The subject half of the pair weights at (k, j). -/
theorem wh_at (c : Dev nD) (k : Fin 512) (j : Fin 4096) : V5 (F := Ideal) m ρ c main_v47 (ix2 k j) = A4 m c (ix2 j (lo k)) := by
  refine (congrFun (v5_wh m ρ c) (ix2 k j)).trans ?_
  exact (transpose_ix2_apply (extractStridedSlice S4096x512 ![0, 0] (A4 m c) slices_S4096x1024_S4096x512_0_0)
    transposes_S4096x512_S512x4096_1_0 k j).trans
    (FusedTile.colSlice_apply (A4 m c) 0 slices_S4096x1024_S4096x512_0_0 j k (lo k) (by show k.val = 0 + k.val; omega))

/-- The object half of the pair weights at (k, j). -/
theorem wt_at (c : Dev nD) (k : Fin 512) (j : Fin 4096) : V5 (F := Ideal) m ρ c main_v50 (ix2 k j) = A4 m c (ix2 j (hi k)) := by
  refine (congrFun (v5_wt m ρ c) (ix2 k j)).trans ?_
  exact (transpose_ix2_apply (extractStridedSlice S4096x512 ![0, 512] (A4 m c) slices_S4096x1024_S4096x512_0_512)
    transposes_S4096x512_S512x4096_1_0 k j).trans
    (FusedTile.colSlice_apply (A4 m c) 512 slices_S4096x1024_S4096x512_0_512 j k (hi k) rfl)

end PairScore.Mid

end
-- ==== Proof.MidClass.lean ====
/-
  The class weights the second launch finds are the argument transposed: at (j, q) the argument at (q, j). The union
  features reach the second launch as launched.
-/
import proofs.«143439_j42365557408495_2_alg».proof.Proof.MidA

set_option maxRecDepth 16384

noncomputable section

namespace PairScore.Mid

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

set_option maxHeartbeats 8000000 in
/-- The class weights the second launch finds. -/
theorem v5_wc (c : Dev nD) : (V5 (F := Ideal) m ρ c main_v51 : S4096x51.Idx → EReal)
    = transpose S4096x51 [1, 0] (A6 m c) transposes_S51x4096_S4096x51_1_0 := by
  show StableHlo.after hostOps1 (W4 (F := Ideal) m ρ c) (Proc.devRef .tc main_v51) = _
  after_results
  rw [w4_arg6 m ρ c]

set_option maxHeartbeats 8000000 in
/-- The union features reach the second launch as launched. -/
theorem v5_arg1 (c : Dev nD) : (V5 (F := Ideal) m ρ c main_arg1 : S20000x4096.Idx → EReal)
    = A1 m c := by
  show StableHlo.after hostOps1 (W4 (F := Ideal) m ρ c) (Proc.devRef .tc main_arg1) = _
  after_results
  exact w4_arg1 m ρ c

/-- The class weights at (j, q). -/
theorem wc_at (c : Dev nD) (j : Fin 4096) (q : Fin 51) : V5 (F := Ideal) m ρ c main_v51 (ix2 j q) = A6 m c (ix2 q j) :=
  (congrFun (v5_wc m ρ c) (ix2 j q)).trans (transpose_ix2_apply (A6 m c) transposes_S51x4096_S4096x51_1_0 j q)

end PairScore.Mid

end
-- ==== Proof.MidBias.lean ====
/-
  The pair bias and the class bias reach the second launch as launched.
-/
import proofs.«143439_j42365557408495_2_alg».proof.Proof.MidA

set_option maxRecDepth 16384

noncomputable section

namespace PairScore.Mid

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

set_option maxHeartbeats 8000000 in
/-- The pair bias reaches the second launch as launched. -/
theorem v5_arg5 (c : Dev nD) : (V5 (F := Ideal) m ρ c main_arg5 : S4096.Idx → EReal)
    = A5 m c := by
  show StableHlo.after hostOps1 (W4 (F := Ideal) m ρ c) (Proc.devRef .tc main_arg5) = _
  after_results
  exact w4_arg5 m ρ c

set_option maxHeartbeats 8000000 in
/-- The class bias reaches the second launch as launched. -/
theorem v5_arg7 (c : Dev nD) : (V5 (F := Ideal) m ρ c main_arg7 : S51.Idx → EReal)
    = A7 m c := by
  show StableHlo.after hostOps1 (W4 (F := Ideal) m ρ c) (Proc.devRef .tc main_arg7) = _
  after_results
  exact w4_arg7 m ρ c

end PairScore.Mid

end
-- ==== Proof.MidFreq.lean ====
/-
  The frequency bias the second launch finds is the reference's own frequency-bias term of the same three arguments:
  the host computes it by the same operations in the same order in both programs.
-/
import proofs.«143439_j42365557408495_2_alg».proof.Proof.MidA
import proofs.«143439_j42365557408495_2_alg».proof.Proof.Gen.ReferenceIdeal.Read

set_option maxRecDepth 16384

noncomputable section

namespace PairScore.Mid

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

set_option maxHeartbeats 8000000 in
/-- The frequency bias the second launch finds is the one the reference computes from the same three arguments. -/
theorem v5_frq (c : Dev nD) : (V5 (F := Ideal) m ρ c main_v44 : S20000x51.Idx → EReal)
    = Cert.ReferenceIdeal.Read.val_main_v61 (F := Ideal) (A8 m c) (A9 m c) (A10 m c) := by
  show StableHlo.after hostOps1 (W4 (F := Ideal) m ρ c) (Proc.devRef .tc main_v44) = _
  after_results
  rw [w4_arg8 m ρ c, w4_arg9 m ρ c, w4_arg10 m ρ c]
  rfl

end PairScore.Mid

end
-- ==== Proof.K1Pay.lean ====
/-
  The second kernel body at an entry of its stored tile.

  For a tile of 400 relations the body multiplies the subject rows and the object rows by their halves of the pair
  weights, adds the two products and the pair bias, multiplies entry by entry by the union features, multiplies by the
  class weights, adds the class bias and the frequency bias. At (p, q):
  ((∑ j, (((∑ k, v0 (p, k) · v4 (k, j)) + (∑ k, v2 (p, k) · v6 (k, j))) + v11 j) · v15 (p, j)) · v17 (j, q)) + v20 q) + v24 (p, q).
-/
import proofs.«143439_j42365557408495_2_alg».proof.Proof.Gen.KernelIdeal.Skeleton
import proofs.«143439_j42365557408495_2_alg».proof.Proof.LibFusedTile

set_option maxRecDepth 16384

noncomputable section

namespace PairScore.K1Pay

open Idealize.ShloMosaic Idealize.ShloMosaic.ValueIdx
open Cert.KernelIdeal Cert.KernelIdeal.Gen

/-- The stored tile at (p, q). -/
theorem pay1_at (v0 v2 : Vec Ideal S400x512 .bf16) (v4 v6 : Vec Ideal S512x4096 .bf16) (v11 : Vec Ideal S4096 .f32)
    (v15 : Vec Ideal S400x4096 .f32) (v17 : Vec Ideal S4096x51 .f32) (v20 : Vec Ideal S51 .f32)
    (v24 : Vec Ideal S400x51 .f32) (p : Fin 400) (q : Fin 51) :
    k1_pay1 (F := Ideal) v0 v2 v4 v6 v11 v15 v17 v20 v24 (ix2 p q)
      = ((∑ j : Fin 4096, ((((∑ k : Fin 512, v0 (ix2 p k) * v4 (ix2 k j)) + (∑ k : Fin 512, v2 (ix2 p k) * v6 (ix2 k j)))
            + v11 (ix1 j)) * v15 (ix2 p j)) * v17 (ix2 j q)) + v20 (ix1 q)) + v24 (ix2 p q) := by
  unfold k1_pay1
  simp only [shapeCast_self]
  exact FusedTile.fused_apply _ rfl rfl rfl rfl rfl rfl _ rfl rfl rfl rfl rfl rfl v0 v2 v4 v6 v11 v15 v17 v20 v24
    _ _ _ _ _ _ p q

end PairScore.K1Pay

end
-- ==== Proof.K1Value.lean ====
/-
  What the second launch leaves in its output array.

  The second launch walks the 20000 relations in 50 tiles of 400. For each tile it reads the tile's rows of the gathered
  subject rows, object rows, union features and frequency bias, and the whole of the two pair-weight halves, the pair
  bias, the class weights and the class bias, and stores the fused score tile. The tiles cover the array, so after the
  launch the array holds, at (r, q),
  ((∑ j, (((∑ k, hd (r, k) · wh (k, j)) + (∑ k, tl (r, k) · wt (k, j))) + bp j) · u (r, j)) · wc (j, q)) + bc q) + fr (r, q)
  of the arrays the launch finds in its nine input buffers.
-/
import proofs.«143439_j42365557408495_2_alg».proof.Proof.Gen.KernelIdeal.Frame
import proofs.«143439_j42365557408495_2_alg».proof.Proof.K1Pay

set_option maxRecDepth 16384

noncomputable section

namespace PairScore.K1

open Idealize.ShloMosaic Idealize.ShloMosaic.ValueIdx Idealize.ShloMosaic.TcCoe Idealize.SL.Sem
open Cert.KernelIdeal Cert.KernelIdeal.Gen
open Idealize.ShloMosaic.Pipeline (Dat)

/-- The fused score of relation r for class q, from whole arrays. -/
def fused (hd tl : S20000x512.Idx → EReal) (wh wt : S512x4096.Idx → EReal) (bp : S4096.Idx → EReal)
    (u : S20000x4096.Idx → EReal) (wc : S4096x51.Idx → EReal) (bc : S51.Idx → EReal) (fr : S20000x51.Idx → EReal)
    (r : Fin 20000) (q : Fin 51) : EReal :=
  ((∑ j : Fin 4096, ((((∑ k : Fin 512, hd (ix2 r k) * wh (ix2 k j)) + (∑ k : Fin 512, tl (ix2 r k) * wt (ix2 k j)))
        + bp (ix1 j)) * u (ix2 r j)) * wc (ix2 j q)) + bc (ix1 q)) + fr (ix2 r q)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The output array as one function of the arrays the launch finds. -/
def score (c : Dev nD) : S20000x51.Idx → EReal := fun i =>
  fused (V c main_v13) (V c main_v20) (V c main_v47) (V c main_v50) (V c main_arg5) (V c main_arg1) (V c main_v51)
    (V c main_arg7) (V c main_v44) ⟨(i 0).val, (i 0).isLt⟩ ⟨(i 1).val, (i 1).isLt⟩

/-- The printed index maps over the grid: tile t of the four row-tiled inputs and of the output is block t; the five
    weight and bias arrays are whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0 :=
  (by decide +kernel : ∀ t : Fin grid1.N, _)

/-- What tile t writes back is block t of `score`. -/
theorem flushed9_eq (c : Dev nD) (t : Fin cfg1.N) :
    (dat1 V c).flushed 9 t = ((cfg1.win 9).blk t).view.read (Elt Ideal) (score V c) := by
  show (cfg1.win 9).cut (grid1.coords t) ((dat1 V c).after 9 t) = _
  rw [after1_9]
  unfold out1_9
  rw [View.canon_unit_zero hz]
  simp only [View.ld_unit_zero (S := S400x512) hz, View.ld_unit_zero (S := S512x4096) hz, View.ld_unit_zero (S := S4096) hz1,
    View.ld_unit_zero (S := S400x4096) hz, View.ld_unit_zero (S := S4096x51) hz, View.ld_unit_zero (S := S51) hz1,
    View.ld_unit_zero (S := S400x51) hz]
  obtain ⟨e00, e01, e10, e11, e20, e21, e30, e31, e40, e41, e50, e51, e60, e70, e71, e80, e90, e91⟩ := idx_facts t
  have ht : t.val < 50 := t.isLt
  funext j
  obtain ⟨p, q, rfl⟩ : ∃ (p : Fin 400) (q : Fin 51), j = ix2 p q := ⟨j 0, j 1, eq_ix2 j⟩
  refine (K1Pay.pay1_at _ _ _ _ _ _ _ _ _ p q).trans ?_
  have hlt : t.val * 400 + p.val < 20000 := by have := p.isLt; omega
  show _ = score V c (((cfg1.win 9).blk t).view.emb (ix2 p q))
  have hE : ((cfg1.win 9).blk t).view.emb (ix2 p q) = (ix2 (⟨t.val * 400 + p.val, hlt⟩ : Fin 20000) q : S20000x51.Idx) := by
    funext a; apply Fin.ext
    match a with
    | ⟨0, _⟩ => show win1_9.index t (0 : Fin 2) * 400 + 1 * p.val = t.val * 400 + p.val; omega
    | ⟨1, _⟩ => show win1_9.index t (1 : Fin 2) * 51 + 1 * q.val = q.val; omega
  rw [hE]
  show _ = fused (V c main_v13) (V c main_v20) (V c main_v47) (V c main_v50) (V c main_arg5) (V c main_arg1) (V c main_v51)
    (V c main_arg7) (V c main_v44) (⟨t.val * 400 + p.val, hlt⟩ : Fin 20000) q
  unfold fused
  refine congrArg₂ (· + ·) (congrArg₂ (· + ·) (Finset.sum_congr rfl fun j _ => congrArg₂ (· * ·) (congrArg₂ (· * ·)
    (congrArg₂ (· + ·) (congrArg₂ (· + ·) (Finset.sum_congr rfl fun k _ => congrArg₂ (· * ·) ?_ ?_)
      (Finset.sum_congr rfl fun k _ => congrArg₂ (· * ·) ?_ ?_)) ?_) ?_) ?_) ?_) ?_
  · show V c main_v13 (((cfg1.win 0).blk t).view.emb (ix2 p k)) = V c main_v13 (ix2 (⟨t.val * 400 + p.val, hlt⟩ : Fin 20000) k)
    refine congrArg (V c main_v13) (funext fun a => Fin.ext ?_)
    match a with
    | ⟨0, _⟩ => show win1_0.index t (0 : Fin 2) * 400 + 1 * p.val = t.val * 400 + p.val; omega
    | ⟨1, _⟩ => show win1_0.index t (1 : Fin 2) * 512 + 1 * k.val = k.val; omega
  · show V c main_v47 (((cfg1.win 4).blk t).view.emb (ix2 k j)) = V c main_v47 (ix2 k j)
    refine congrArg (V c main_v47) (funext fun a => Fin.ext ?_)
    match a with
    | ⟨0, _⟩ => show win1_4.index t (0 : Fin 2) * 512 + 1 * k.val = k.val; omega
    | ⟨1, _⟩ => show win1_4.index t (1 : Fin 2) * 4096 + 1 * j.val = j.val; omega
  · show V c main_v20 (((cfg1.win 1).blk t).view.emb (ix2 p k)) = V c main_v20 (ix2 (⟨t.val * 400 + p.val, hlt⟩ : Fin 20000) k)
    refine congrArg (V c main_v20) (funext fun a => Fin.ext ?_)
    match a with
    | ⟨0, _⟩ => show win1_1.index t (0 : Fin 2) * 400 + 1 * p.val = t.val * 400 + p.val; omega
    | ⟨1, _⟩ => show win1_1.index t (1 : Fin 2) * 512 + 1 * k.val = k.val; omega
  · show V c main_v50 (((cfg1.win 5).blk t).view.emb (ix2 k j)) = V c main_v50 (ix2 k j)
    refine congrArg (V c main_v50) (funext fun a => Fin.ext ?_)
    match a with
    | ⟨0, _⟩ => show win1_5.index t (0 : Fin 2) * 512 + 1 * k.val = k.val; omega
    | ⟨1, _⟩ => show win1_5.index t (1 : Fin 2) * 4096 + 1 * j.val = j.val; omega
  · show V c main_arg5 (((cfg1.win 6).blk t).view.emb (ix1 j)) = V c main_arg5 (ix1 j)
    refine congrArg (V c main_arg5) (funext fun a => Fin.ext ?_)
    match a with
    | ⟨0, _⟩ => show win1_6.index t (0 : Fin 1) * 4096 + 1 * j.val = j.val; omega
  · show V c main_arg1 (((cfg1.win 2).blk t).view.emb (ix2 p j)) = V c main_arg1 (ix2 (⟨t.val * 400 + p.val, hlt⟩ : Fin 20000) j)
    refine congrArg (V c main_arg1) (funext fun a => Fin.ext ?_)
    match a with
    | ⟨0, _⟩ => show win1_2.index t (0 : Fin 2) * 400 + 1 * p.val = t.val * 400 + p.val; omega
    | ⟨1, _⟩ => show win1_2.index t (1 : Fin 2) * 4096 + 1 * j.val = j.val; omega
  · show V c main_v51 (((cfg1.win 7).blk t).view.emb (ix2 j q)) = V c main_v51 (ix2 j q)
    refine congrArg (V c main_v51) (funext fun a => Fin.ext ?_)
    match a with
    | ⟨0, _⟩ => show win1_7.index t (0 : Fin 2) * 4096 + 1 * j.val = j.val; omega
    | ⟨1, _⟩ => show win1_7.index t (1 : Fin 2) * 51 + 1 * q.val = q.val; omega
  · show V c main_arg7 (((cfg1.win 8).blk t).view.emb (ix1 q)) = V c main_arg7 (ix1 q)
    refine congrArg (V c main_arg7) (funext fun a => Fin.ext ?_)
    match a with
    | ⟨0, _⟩ => show win1_8.index t (0 : Fin 1) * 51 + 1 * q.val = q.val; omega
  · show V c main_v44 (((cfg1.win 3).blk t).view.emb (ix2 p q)) = V c main_v44 (ix2 (⟨t.val * 400 + p.val, hlt⟩ : Fin 20000) q)
    refine congrArg (V c main_v44) (funext fun a => Fin.ext ?_)
    match a with
    | ⟨0, _⟩ => show win1_3.index t (0 : Fin 2) * 400 + 1 * p.val = t.val * 400 + p.val; omega
    | ⟨1, _⟩ => show win1_3.index t (1 : Fin 2) * 51 + 1 * q.val = q.val; omega

/-- An index of the output array is in tile t's block iff each coordinate is in the block's range. -/
theorem mem_blk9 (t : Fin cfg1.N) (i : S20000x51.Idx) :
    i ∈ ((cfg1.win 9).blk t).view.set ↔ ∀ a : Fin 2, win1_9.index t a * S400x51.size a ≤ (i a).val ∧ (i a).val < win1_9.index t a * S400x51.size a + S400x51.size a := by
  show i ∈ ((View.whole main_v52).slice (win1_9.rect t)).set ↔ _
  rw [View.set_slice_whole, Rect.mem_set_unit]
  exact Iff.rfl

/-- Every index of the output array lies in the block of the tile its row falls in. -/
theorem cover9 (i : S20000x51.Idx) :
    ∃ t : Fin cfg1.N, (cfg1.win 9).flush t = true ∧ i ∈ ((cfg1.win 9).blk t).view.set := by
  have hi0 : (i 0).val < 20000 := (i 0).isLt
  have hi1 : (i 1).val < 51 := (i 1).isLt
  let t : Fin cfg1.N := ⟨(i 0).val / 400, by show (i 0).val / 400 < 50; omega⟩
  obtain ⟨e00, e01, e10, e11, e20, e21, e30, e31, e40, e41, e50, e51, e60, e70, e71, e80, e90, e91⟩ := idx_facts t
  have htv : t.val = (i 0).val / 400 := rfl
  refine ⟨t, flush1_9 t, ?_⟩
  rw [mem_blk9]
  intro a
  match a with
  | ⟨0, _⟩ => show win1_9.index t (0 : Fin 2) * 400 ≤ (i 0).val ∧ (i 0).val < win1_9.index t (0 : Fin 2) * 400 + 400; omega
  | ⟨1, _⟩ => show win1_9.index t (1 : Fin 2) * 51 ≤ (i 1).val ∧ (i 1).val < win1_9.index t (1 : Fin 2) * 51 + 51; omega

/-- After the launch the output array is `score`. -/
theorem final9 (c : Dev nD) : (dat1 V c).arrAt 9 cfg1.N = score V c :=
  (dat1 V c).arrAt_eq_of_cover 9 (score V c) (fun t _ => flushed9_eq V c t) (cover9)

end PairScore.K1

end
-- ==== Proof.MidB.lean ====
/-
  The second launch's output array is the score.

  Under the index range 0 ≤ index < 5000 the wrap of a negative index is the identity and the clamp into the 5120 padded
  rows is too, so the gathered rows are the rectified projections of the objects a relation names; with the weights,
  biases, union features and frequency bias read at an entry, the fused tile formula is the score G.
-/
import proofs.«143439_j42365557408495_2_alg».proof.Proof.MidGather
import proofs.«143439_j42365557408495_2_alg».proof.Proof.MidObject
import proofs.«143439_j42365557408495_2_alg».proof.Proof.MidWeights
import proofs.«143439_j42365557408495_2_alg».proof.Proof.MidClass
import proofs.«143439_j42365557408495_2_alg».proof.Proof.MidBias
import proofs.«143439_j42365557408495_2_alg».proof.Proof.MidFreq
import proofs.«143439_j42365557408495_2_alg».proof.Proof.K1Value

set_option maxRecDepth 16384

noncomputable section

namespace PairScore.Mid

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The subject rows at (r, k), the index words being in range. -/
theorem v13_at (c : Dev nD) (hr : ∀ (r : Fin 20000) (j : Fin 2), 0 ≤ (A10 m c (ix2 r j)).toInt ∧ (A10 m c (ix2 r j)).toInt < 5000)
    (r : Fin 20000) (k : Fin 512) :
    V5 (F := Ideal) m ρ c main_v13 (ix2 r k) = PairScore.emb (A0 m c) (A2 m c) (A3 m c) (nd (A10 m c) r 0) (lo k) := by
  refine (congrFun (v5_v13 m ρ c) (ix2 r k)).trans ?_
  refine (WrappedGather.rowGather_at (by decide) gather_S5120x512_S20000x1_S20000x512_1_0_n_n_0_1_1512 rfl rfl rfl rfl rfl rfl
    (K0.head (V3 (F := Ideal) m ρ) c) (A10 m c) 0 0 rfl 5120#32 slices_S20000x2_S20000x1_0_0 shapeCasts_S20000x1_S20000
    bcast_S_S20000 bcast_S_S20000 bcast_S20000_S20000x1_0 r k (hr r 0).1).trans ?_
  have h0 := (hr r 0).1
  have h1 := (hr r 0).2
  have hv : min (A10 m c (ix2 r 0)).toInt.toNat (5120 - 1) = (nd (A10 m c) r 0).val := by
    show min (A10 m c (ix2 r 0)).toInt.toNat (5120 - 1) = min (A10 m c (ix2 r 0)).toInt.toNat 4999
    omega
  have hlt : (nd (A10 m c) r 0).val < 5120 := by have := (nd (A10 m c) r 0).isLt; omega
  refine (congrArg (fun i : Fin 5120 => K0.head (V3 (F := Ideal) m ρ) c (ix2 i k)) (Fin.ext hv : _ = (⟨(nd (A10 m c) r 0).val, hlt⟩ : Fin 5120))).trans ?_
  exact head_at m ρ c (nd (A10 m c) r 0) k hlt

/-- The object rows at (r, k), the index words being in range. -/
theorem v20_at (c : Dev nD) (hr : ∀ (r : Fin 20000) (j : Fin 2), 0 ≤ (A10 m c (ix2 r j)).toInt ∧ (A10 m c (ix2 r j)).toInt < 5000)
    (r : Fin 20000) (k : Fin 512) :
    V5 (F := Ideal) m ρ c main_v20 (ix2 r k) = PairScore.emb (A0 m c) (A2 m c) (A3 m c) (nd (A10 m c) r 1) (hi k) := by
  refine (congrFun (v5_v20 m ρ c) (ix2 r k)).trans ?_
  refine (WrappedGather.rowGather_at (by decide) gather_S5120x512_S20000x1_S20000x512_1_0_n_n_0_1_1512 rfl rfl rfl rfl rfl rfl
    (K0.tail (V3 (F := Ideal) m ρ) c) (A10 m c) 1 1 rfl 5120#32 slices_S20000x2_S20000x1_0_1 shapeCasts_S20000x1_S20000
    bcast_S_S20000 bcast_S_S20000 bcast_S20000_S20000x1_0 r k (hr r 1).1).trans ?_
  have h0 := (hr r 1).1
  have h1 := (hr r 1).2
  have hv : min (A10 m c (ix2 r 1)).toInt.toNat (5120 - 1) = (nd (A10 m c) r 1).val := by
    show min (A10 m c (ix2 r 1)).toInt.toNat (5120 - 1) = min (A10 m c (ix2 r 1)).toInt.toNat 4999
    omega
  have hlt : (nd (A10 m c) r 1).val < 5120 := by have := (nd (A10 m c) r 1).isLt; omega
  refine (congrArg (fun i : Fin 5120 => K0.tail (V3 (F := Ideal) m ρ) c (ix2 i k)) (Fin.ext hv : _ = (⟨(nd (A10 m c) r 1).val, hlt⟩ : Fin 5120))).trans ?_
  exact tail_at m ρ c (nd (A10 m c) r 1) k hlt

/-- The second launch's output array at (r, q) is the score, the index words being in range. -/
theorem score_at (c : Dev nD) (hr : ∀ (r : Fin 20000) (j : Fin 2), 0 ≤ (A10 m c (ix2 r j)).toInt ∧ (A10 m c (ix2 r j)).toInt < 5000)
    (r : Fin 20000) (q : Fin 51) :
    K1.score (V5 (F := Ideal) m ρ) c (ix2 r q)
      = PairScore.G (A0 m c) (A1 m c) (A2 m c) (A3 m c) (A4 m c) (A5 m c) (A6 m c) (A7 m c) (A10 m c)
          (Cert.ReferenceIdeal.Read.val_main_v61 (F := Ideal) (A8 m c) (A9 m c) (A10 m c)) r q := by
  show K1.fused (V5 (F := Ideal) m ρ c main_v13) (V5 (F := Ideal) m ρ c main_v20) (V5 (F := Ideal) m ρ c main_v47)
    (V5 (F := Ideal) m ρ c main_v50) (V5 (F := Ideal) m ρ c main_arg5) (V5 (F := Ideal) m ρ c main_arg1)
    (V5 (F := Ideal) m ρ c main_v51) (V5 (F := Ideal) m ρ c main_arg7) (V5 (F := Ideal) m ρ c main_v44) r q = _
  unfold K1.fused PairScore.G PairScore.pr
  refine congrArg₂ (· + ·) (congrArg₂ (· + ·) (Finset.sum_congr rfl fun j _ => congrArg₂ (· * ·) (congrArg₂ (· * ·)
    (congrArg₂ (· + ·) (congrArg₂ (· + ·) (Finset.sum_congr rfl fun k _ => congrArg₂ (· * ·) ?_ ?_)
      (Finset.sum_congr rfl fun k _ => congrArg₂ (· * ·) ?_ ?_)) ?_) ?_) ?_) ?_) ?_
  · exact v13_at m ρ c hr r k
  · exact wh_at m ρ c k j
  · exact v20_at m ρ c hr r k
  · exact wt_at m ρ c k j
  · exact congrFun (v5_arg5 m ρ c) (ix1 j)
  · exact congrFun (v5_arg1 m ρ c) (ix2 r j)
  · exact wc_at m ρ c j q
  · exact congrFun (v5_arg7 m ρ c) (ix1 q)
  · exact congrFun (v5_frq m ρ c) (ix2 r q)

end PairScore.Mid

end
-- ==== Proof.LibEndToEnd.lean ====
/-
  Arrays laid end to end along one axis, read at an entry.

  When `N` pieces of ONE shape, each of extent `c` along the joined axis, are laid end to end, position `k` on that axis
  falls in piece `k / c` at its own position `k % c`; the other coordinates are unchanged. This module states that for the
  last axis of a matrix (`[a, c]` pieces into `[a, w]`) and of a rank-3 array (`[a, b, c]` pieces into `[a, b, w]`), with the
  pieces given as a family over `Fin N`, and then for the literal lists of two, three and five pieces. It also reads the
  two-piece join along the MIDDLE axis of a rank-3 array — what a rotation of that axis by a fixed amount is made of: the
  first `b₁` positions come from the first piece, the rest from the second at the position less `b₁`.
  Every extent is generic; the entries may be of any type.
-/
import Idealize.ShloMosaic.Lib.ValueIdx
import Idealize.ShloMosaic.Lib.Pipeline.Value

namespace EndToEnd

open Idealize.ShloMosaic Idealize.ShloMosaic.ValueIdx

variable {α : Type}

/-- The piece-and-position reading of a position `k` on the joined axis, against pieces of extent `c`. -/
theorem div_lt {c w N : ℕ} (hw : w = N * c) (hc : 0 < c) (k : Fin w) : k.val / c < N :=
  (Nat.div_lt_iff_lt_mul hc).2 (hw ▸ k.isLt)

/-! ## Along the last axis of a matrix -/

/-- `N` matrices `[a, c]` joined along axis 1 into `[a, w]`: at `(p, k)`, piece `k / c` at `(p, k % c)`. -/
theorem cols_apply {a c w N : ℕ} (f : Fin N → ((⟨2, ![a, c]⟩ : Shape).Idx → α))
    (h : Shape.Concatenates ((List.ofFn fun n : Fin N => (⟨⟨2, ![a, c]⟩, f n⟩ : (s : Shape) × (s.Idx → α))).map (·.1))
      ⟨2, ![a, w]⟩ (1 : Fin 2))
    (hc : 0 < c) (p : Fin a) (k : Fin w) (n : Fin N) (hn : k.val / c = n.val) :
    concatenate ⟨2, ![a, w]⟩ (1 : Fin 2) (List.ofFn fun n : Fin N => (⟨⟨2, ![a, c]⟩, f n⟩ : (s : Shape) × (s.Idx → α))) h
        (ix2 p k)
      = f n (ix2 p ⟨k.val % c, Nat.mod_lt _ hc⟩) := by
  refine concatenate_ofFn_apply (t := ⟨2, ![a, w]⟩) (s₁ := ⟨2, ![a, c]⟩) (1 : Fin 2) f h rfl c rfl (ix2 p k) n hn
    (ix2 p ⟨k.val % c, Nat.mod_lt _ hc⟩) rfl fun b hb => ?_
  match b with
  | ⟨0, _⟩ => rfl
  | ⟨1, _⟩ => exact absurd rfl hb

/-! ## Along the last axis of a rank-3 array -/

/-- `N` arrays `[a, b, c]` joined along axis 2 into `[a, b, w]`: at `(p, r, k)`, piece `k / c` at `(p, r, k % c)`. -/
theorem last3_apply {a b c w N : ℕ} (f : Fin N → ((⟨3, ![a, b, c]⟩ : Shape).Idx → α))
    (h : Shape.Concatenates ((List.ofFn fun n : Fin N => (⟨⟨3, ![a, b, c]⟩, f n⟩ : (s : Shape) × (s.Idx → α))).map (·.1))
      ⟨3, ![a, b, w]⟩ (2 : Fin 3))
    (hc : 0 < c) (p : Fin a) (r : Fin b) (k : Fin w) (n : Fin N) (hn : k.val / c = n.val) :
    concatenate ⟨3, ![a, b, w]⟩ (2 : Fin 3) (List.ofFn fun n : Fin N => (⟨⟨3, ![a, b, c]⟩, f n⟩ : (s : Shape) × (s.Idx → α))) h
        (ix3 p r k)
      = f n (ix3 p r ⟨k.val % c, Nat.mod_lt _ hc⟩) := by
  refine concatenate_ofFn_apply (t := ⟨3, ![a, b, w]⟩) (s₁ := ⟨3, ![a, b, c]⟩) (2 : Fin 3) f h rfl c rfl (ix3 p r k) n hn
    (ix3 p r ⟨k.val % c, Nat.mod_lt _ hc⟩) rfl fun d hd => ?_
  match d with
  | ⟨0, _⟩ => rfl
  | ⟨1, _⟩ => rfl
  | ⟨2, _⟩ => exact absurd rfl hd

/-! ## Two pieces along the middle axis of a rank-3 array -/

/-- `[a, b₁, c]` and `[a, b₂, c]` joined along axis 1 into `[a, b, c]`, at a middle position inside the first piece. -/
theorem mid_left {a b₁ b₂ b c : ℕ} (x₁ : (⟨3, ![a, b₁, c]⟩ : Shape).Idx → α) (x₂ : (⟨3, ![a, b₂, c]⟩ : Shape).Idx → α)
    (h : Shape.Concatenates [⟨3, ![a, b₁, c]⟩, ⟨3, ![a, b₂, c]⟩] ⟨3, ![a, b, c]⟩ (1 : Fin 3))
    (p : Fin a) (r : Fin b) (q : Fin c) (hr : r.val < b₁) :
    concatenate ⟨3, ![a, b, c]⟩ (1 : Fin 3) [⟨⟨3, ![a, b₁, c]⟩, x₁⟩, ⟨⟨3, ![a, b₂, c]⟩, x₂⟩] h (ix3 p r q)
      = x₁ (ix3 p ⟨r.val, hr⟩ q) := by
  refine concatenate_pair_apply_left (t := ⟨3, ![a, b, c]⟩) (s₁ := ⟨3, ![a, b₁, c]⟩) (s₂ := ⟨3, ![a, b₂, c]⟩) (1 : Fin 3) x₁ x₂ h
    (ix3 p r q) rfl (ix3 p ⟨r.val, hr⟩ q) fun d => ?_
  match d with
  | ⟨0, _⟩ => rfl
  | ⟨1, _⟩ => rfl
  | ⟨2, _⟩ => rfl

/-- The same at a middle position past the first piece: the second piece at the position less `b₁`. -/
theorem mid_right {a b₁ b₂ b c : ℕ} (x₁ : (⟨3, ![a, b₁, c]⟩ : Shape).Idx → α) (x₂ : (⟨3, ![a, b₂, c]⟩ : Shape).Idx → α)
    (h : Shape.Concatenates [⟨3, ![a, b₁, c]⟩, ⟨3, ![a, b₂, c]⟩] ⟨3, ![a, b, c]⟩ (1 : Fin 3))
    (p : Fin a) (r : Fin b) (q : Fin c) (hr : b₁ ≤ r.val) (hr₂ : r.val - b₁ < b₂) :
    concatenate ⟨3, ![a, b, c]⟩ (1 : Fin 3) [⟨⟨3, ![a, b₁, c]⟩, x₁⟩, ⟨⟨3, ![a, b₂, c]⟩, x₂⟩] h (ix3 p r q)
      = x₂ (ix3 p ⟨r.val - b₁, hr₂⟩ q) := by
  refine concatenate_pair_apply_right (t := ⟨3, ![a, b, c]⟩) (s₁ := ⟨3, ![a, b₁, c]⟩) (s₂ := ⟨3, ![a, b₂, c]⟩) (1 : Fin 3) x₁ x₂ h
    (ix3 p r q) rfl rfl (ix3 p ⟨r.val - b₁, hr₂⟩ q) (fun d hd => ?_) ?_
  · match d with
    | ⟨0, _⟩ => rfl
    | ⟨1, _⟩ => exact absurd rfl hd
    | ⟨2, _⟩ => rfl
  · show r.val - b₁ + b₁ = r.val
    omega

end EndToEnd
-- ==== Proof.RefSide.lean ====
import proofs.«143439_j42365557408495_2_alg».proof.Proof.Gen.ReferenceIdeal.Read
import proofs.«143439_j42365557408495_2_alg».proof.Proof.Spec
import proofs.«143439_j42365557408495_2_alg».proof.Proof.LibGatherScatter
import proofs.«143439_j42365557408495_2_alg».proof.Proof.LibEndToEnd

/-
  The reference program read entry by entry: its result at (r, c) is the score G r c of the specification, with the
  frequency-bias gather kept as an unopened term.

  The steps follow the program. The rectified projection at (n, q) is emb n q; its two column halves are emb n (lo k) and
  emb n (hi k). An index word that is not negative passes the negative-index wrap unchanged, so the two row gathers read
  emb (nd r 0) (lo k) and emb (nd r 1) (hi k). Joined along the columns they give a row of 1024 entries, and the sum of
  that row against a row of x4 splits into the sum over the first 512 columns plus the sum over the last 512. Sums and
  products of extended reals are those of a commutative monoid, so no finiteness is asked of the inputs.
-/

noncomputable section

namespace PairScore.RefSide

open Cert.ReferenceIdeal Cert.ReferenceIdeal.Gen Cert.ReferenceIdeal.Read Idealize.ShloMosaic Idealize.ShloMosaic.ValueIdx Idealize.ShloMosaic.StableHlo

/-- The left index of the first projection's term k at (n, q) is (n, k). -/
theorem l1 (n : Fin 5000) (q : Fin 1024) (k : Fin 512) : lidx_main_v1 (ix2 n q) k = ix2 n k := by
  funext a; match a with | ⟨0, _⟩ => rfl | ⟨1, _⟩ => rfl
/-- The right index of the first projection's term k at (n, q), through the transpose, is (q, k). -/
theorem r1 (n : Fin 5000) (q : Fin 1024) (k : Fin 512) : idx_main_v0 (ridx_main_v1 (ix2 n q) k) = ix2 q k := by
  funext a; match a with | ⟨0, _⟩ => rfl | ⟨1, _⟩ => rfl
/-- The broadcast bias at (n, q) reads x3 at q. -/
theorem b1 (n : Fin 5000) (q : Fin 1024) : idx_main_v2 (idx_main_v3 (ix2 n q)) = ix1 q := by
  funext a; match a with | ⟨0, _⟩ => rfl

/-- The rectified projection at (n, q) is emb n q. -/
theorem v5_at (x0 : (⟨S5000x512, .f32⟩ : BufTy).Contents (Elt Ideal)) (x2 : (⟨S1024x512, .f32⟩ : BufTy).Contents (Elt Ideal))
    (x3 : (⟨S1024, .f32⟩ : BufTy).Contents (Elt Ideal)) (n : Fin 5000) (q : Fin 1024) :
    val_main_v5 (F := Ideal) x0 x2 x3 (ix2 n q) = emb x0 x2 x3 n q := by
  rw [val_main_v5_apply, val_main_v4_apply, val_main_v1_apply, val_main_v3_apply, val_main_v2_apply,
    val_main_call0_v0_apply, val_main_call0_cst_apply]
  simp only [Ideal.maximumf_def, Ideal.addf_def, Ideal.ofBits_def, Ideal.ofBits_zero_f32, val_main_v0_apply, l1, r1, b1]
  rfl

/-- The first column half of the rectified projection at (n, k) is emb n (lo k). -/
theorem v6_at (x0 : (⟨S5000x512, .f32⟩ : BufTy).Contents (Elt Ideal)) (x2 : (⟨S1024x512, .f32⟩ : BufTy).Contents (Elt Ideal))
    (x3 : (⟨S1024, .f32⟩ : BufTy).Contents (Elt Ideal)) (n : Fin 5000) (k : Fin 512) :
    val_main_v6 (F := Ideal) x0 x2 x3 (ix2 n k) = emb x0 x2 x3 n (lo k) := by
  rw [val_main_v6_apply, ← v5_at]
  congr 1
  funext a; match a with | ⟨0, _⟩ => rfl | ⟨1, _⟩ => rfl

/-- The second column half of the rectified projection at (n, k) is emb n (hi k). -/
theorem v7_at (x0 : (⟨S5000x512, .f32⟩ : BufTy).Contents (Elt Ideal)) (x2 : (⟨S1024x512, .f32⟩ : BufTy).Contents (Elt Ideal))
    (x3 : (⟨S1024, .f32⟩ : BufTy).Contents (Elt Ideal)) (n : Fin 5000) (k : Fin 512) :
    val_main_v7 (F := Ideal) x0 x2 x3 (ix2 n k) = emb x0 x2 x3 n (hi k) := by
  rw [val_main_v7_apply, ← v5_at]
  congr 1
  funext a; match a with | ⟨0, _⟩ => rfl | ⟨1, _⟩ => rfl

/-- The subject index column at r is the index word at (r, 0). -/
theorem v9_at (x10 : (⟨S20000x2, .i32⟩ : BufTy).Contents (Elt Ideal)) (r : Fin 20000) :
    val_main_v9 (F := Ideal) x10 (ix1 r) = x10 (ix2 r 0) := by
  rw [val_main_v9_apply, val_main_v8_apply]
  congr 1
  funext a; match a with | ⟨0, _⟩ => exact Fin.ext (Nat.div_one _) | ⟨1, _⟩ => rfl

/-- The object index column at r is the index word at (r, 1). -/
theorem v11_at (x10 : (⟨S20000x2, .i32⟩ : BufTy).Contents (Elt Ideal)) (r : Fin 20000) :
    val_main_v11 (F := Ideal) x10 (ix1 r) = x10 (ix2 r 1) := by
  rw [val_main_v11_apply, val_main_v10_apply]
  congr 1
  funext a; match a with | ⟨0, _⟩ => exact Fin.ext (Nat.div_one _) | ⟨1, _⟩ => rfl

/-- The wrapped subject index at (r, 0) is the index word at (r, 0), the word not being negative. -/
theorem v17_at (x10 : (⟨S20000x2, .i32⟩ : BufTy).Contents (Elt Ideal))
    (hnn : ∀ (r : Fin 20000) (j : Fin 2), 0 ≤ (x10 (ix2 r j)).toInt) (r : Fin 20000) :
    val_main_v17 (F := Ideal) x10 (ix2 r 0) = x10 (ix2 r 0) := by
  rw [val_main_v17_apply]
  have e : idx_main_v17 (ix2 r (0 : Fin 1)) = ix1 r := by
    funext a; match a with | ⟨0, _⟩ => rfl
  rw [e, ← v9_at x10 r]
  unfold val_main_v16 val_main_v13 val_main_v15 val_main_v12 val_main_v14 val_main_c val_main_c_0
  refine Pegcn.Lib.wrap_bcast_apply _ bcast_S_S20000 bcast_S_S20000 (val_main_v9 (F := Ideal) x10) 5000#32 (ix1 r) ?_
  rw [v9_at]
  exact hnn r 0

/-- The wrapped object index at (r, 0) is the index word at (r, 1), the word not being negative. -/
theorem v24_at (x10 : (⟨S20000x2, .i32⟩ : BufTy).Contents (Elt Ideal))
    (hnn : ∀ (r : Fin 20000) (j : Fin 2), 0 ≤ (x10 (ix2 r j)).toInt) (r : Fin 20000) :
    val_main_v24 (F := Ideal) x10 (ix2 r 0) = x10 (ix2 r 1) := by
  rw [val_main_v24_apply]
  have e : idx_main_v24 (ix2 r (0 : Fin 1)) = ix1 r := by
    funext a; match a with | ⟨0, _⟩ => rfl
  rw [e, ← v11_at x10 r]
  unfold val_main_v23 val_main_v20 val_main_v22 val_main_v19 val_main_v21 val_main_c_1 val_main_c_2
  refine Pegcn.Lib.wrap_bcast_apply _ bcast_S_S20000 bcast_S_S20000 (val_main_v11 (F := Ideal) x10) 5000#32 (ix1 r) ?_
  rw [v11_at]
  exact hnn r 1

/-- The subject row gather at (r, k) is emb (nd r 0) (lo k). -/
theorem v18_at (x0 : (⟨S5000x512, .f32⟩ : BufTy).Contents (Elt Ideal)) (x2 : (⟨S1024x512, .f32⟩ : BufTy).Contents (Elt Ideal))
    (x3 : (⟨S1024, .f32⟩ : BufTy).Contents (Elt Ideal)) (x10 : (⟨S20000x2, .i32⟩ : BufTy).Contents (Elt Ideal))
    (hnn : ∀ (r : Fin 20000) (j : Fin 2), 0 ≤ (x10 (ix2 r j)).toInt) (r : Fin 20000) (k : Fin 512) :
    val_main_v18 (F := Ideal) x0 x2 x3 x10 (ix2 r k) = emb x0 x2 x3 (nd x10 r 0) (lo k) := by
  unfold val_main_v18
  rw [Pegcn.Lib.gather2_apply (by decide) gather_S5000x512_S20000x1_S20000x512_1_0_n_n_0_1_1512 rfl rfl rfl rfl rfl rfl,
    v6_at]
  simp only [v17_at x10 hnn]
  rfl

/-- The object row gather at (r, k) is emb (nd r 1) (hi k). -/
theorem v25_at (x0 : (⟨S5000x512, .f32⟩ : BufTy).Contents (Elt Ideal)) (x2 : (⟨S1024x512, .f32⟩ : BufTy).Contents (Elt Ideal))
    (x3 : (⟨S1024, .f32⟩ : BufTy).Contents (Elt Ideal)) (x10 : (⟨S20000x2, .i32⟩ : BufTy).Contents (Elt Ideal))
    (hnn : ∀ (r : Fin 20000) (j : Fin 2), 0 ≤ (x10 (ix2 r j)).toInt) (r : Fin 20000) (k : Fin 512) :
    val_main_v25 (F := Ideal) x0 x2 x3 x10 (ix2 r k) = emb x0 x2 x3 (nd x10 r 1) (hi k) := by
  unfold val_main_v25
  rw [Pegcn.Lib.gather2_apply (by decide) gather_S5000x512_S20000x1_S20000x512_1_0_n_n_0_1_1512 rfl rfl rfl rfl rfl rfl,
    v7_at]
  simp only [v24_at x10 hnn]
  rfl

/-- The joined row at a column of the first half reads the subject gather. -/
theorem v26_lo (x0 : (⟨S5000x512, .f32⟩ : BufTy).Contents (Elt Ideal)) (x2 : (⟨S1024x512, .f32⟩ : BufTy).Contents (Elt Ideal))
    (x3 : (⟨S1024, .f32⟩ : BufTy).Contents (Elt Ideal)) (x10 : (⟨S20000x2, .i32⟩ : BufTy).Contents (Elt Ideal))
    (r : Fin 20000) (k : Fin 512) :
    val_main_v26 (F := Ideal) x0 x2 x3 x10 (ix2 r (lo k)) = val_main_v18 (F := Ideal) x0 x2 x3 x10 (ix2 r k) := by
  unfold val_main_v26
  have h := EndToEnd.cols_apply (a := 20000) (c := 512) (w := 1024) (N := 2)
    (fun n : Fin 2 => if n = 0 then val_main_v18 (F := Ideal) x0 x2 x3 x10 else val_main_v25 (F := Ideal) x0 x2 x3 x10)
    concatenates_S20000x512_S20000x512_S20000x1024_d1 (by decide) r (lo k) 0
    (by show k.val / 512 = 0; exact Nat.div_eq_of_lt k.isLt)
  refine h.trans ?_
  show val_main_v18 (F := Ideal) x0 x2 x3 x10 _ = _
  congr 1
  funext a; match a with | ⟨0, _⟩ => rfl | ⟨1, _⟩ => exact Fin.ext (Nat.mod_eq_of_lt k.isLt)

/-- The joined row at a column of the second half reads the object gather. -/
theorem v26_hi (x0 : (⟨S5000x512, .f32⟩ : BufTy).Contents (Elt Ideal)) (x2 : (⟨S1024x512, .f32⟩ : BufTy).Contents (Elt Ideal))
    (x3 : (⟨S1024, .f32⟩ : BufTy).Contents (Elt Ideal)) (x10 : (⟨S20000x2, .i32⟩ : BufTy).Contents (Elt Ideal))
    (r : Fin 20000) (k : Fin 512) :
    val_main_v26 (F := Ideal) x0 x2 x3 x10 (ix2 r (hi k)) = val_main_v25 (F := Ideal) x0 x2 x3 x10 (ix2 r k) := by
  unfold val_main_v26
  have h := EndToEnd.cols_apply (a := 20000) (c := 512) (w := 1024) (N := 2)
    (fun n : Fin 2 => if n = 0 then val_main_v18 (F := Ideal) x0 x2 x3 x10 else val_main_v25 (F := Ideal) x0 x2 x3 x10)
    concatenates_S20000x512_S20000x512_S20000x1024_d1 (by decide) r (hi k) 1
    (by show (512 + k.val) / 512 = 1; have := k.isLt; omega)
  refine h.trans ?_
  show val_main_v25 (F := Ideal) x0 x2 x3 x10 _ = _
  congr 1
  funext a; match a with
    | ⟨0, _⟩ => rfl
    | ⟨1, _⟩ => exact Fin.ext (by show (512 + k.val) % 512 = k.val; have := k.isLt; omega)

/-- A sum over the 1024 columns is the sum over the first 512 plus the sum over the last 512. -/
theorem sum_split (g : Fin 1024 → EReal) :
    ∑ k : Fin 1024, g k = (∑ k : Fin 512, g (lo k)) + ∑ k : Fin 512, g (hi k) :=
  Fin.sum_univ_add (M := EReal) (a := 512) (b := 512) g

/-- The pair projection before its bias at (r, j): the subject half-sum plus the object half-sum. -/
theorem v28_at (x0 : (⟨S5000x512, .f32⟩ : BufTy).Contents (Elt Ideal))
    (x2 : (⟨S1024x512, .f32⟩ : BufTy).Contents (Elt Ideal))
    (x3 : (⟨S1024, .f32⟩ : BufTy).Contents (Elt Ideal))
    (x4 : (⟨S4096x1024, .f32⟩ : BufTy).Contents (Elt Ideal))
    (x10 : (⟨S20000x2, .i32⟩ : BufTy).Contents (Elt Ideal))
    (hnn : ∀ (r : Fin 20000) (j : Fin 2), 0 ≤ (x10 (ix2 r j)).toInt) (r : Fin 20000) (j : Fin 4096) :
    val_main_v28 (F := Ideal) x0 x2 x3 x4 x10 (ix2 r j)
      = (∑ k : Fin 512, emb x0 x2 x3 (nd x10 r 0) (lo k) * x4 (ix2 j (lo k)))
        + ∑ k : Fin 512, emb x0 x2 x3 (nd x10 r 1) (hi k) * x4 (ix2 j (hi k)) := by
  have el : ∀ k : Fin 1024, lidx_main_v28 (ix2 r j) k = ix2 r k := fun k => by
    funext a; match a with | ⟨0, _⟩ => rfl | ⟨1, _⟩ => rfl
  have er : ∀ k : Fin 1024, idx_main_v27 (ridx_main_v28 (ix2 r j) k) = ix2 j k := fun k => by
    funext a; match a with | ⟨0, _⟩ => rfl | ⟨1, _⟩ => rfl
  rw [val_main_v28_apply]
  simp only [val_main_v27_apply, el, er]
  rw [sum_split]
  simp only [v26_lo, v26_hi, v18_at x0 x2 x3 x10 hnn, v25_at x0 x2 x3 x10 hnn]

/-- The pair projection with its bias at (r, j) is pr r j. -/
theorem v31_at (x0 : (⟨S5000x512, .f32⟩ : BufTy).Contents (Elt Ideal))
    (x2 : (⟨S1024x512, .f32⟩ : BufTy).Contents (Elt Ideal))
    (x3 : (⟨S1024, .f32⟩ : BufTy).Contents (Elt Ideal))
    (x4 : (⟨S4096x1024, .f32⟩ : BufTy).Contents (Elt Ideal))
    (x5 : (⟨S4096, .f32⟩ : BufTy).Contents (Elt Ideal))
    (x10 : (⟨S20000x2, .i32⟩ : BufTy).Contents (Elt Ideal))
    (hnn : ∀ (r : Fin 20000) (j : Fin 2), 0 ≤ (x10 (ix2 r j)).toInt) (r : Fin 20000) (j : Fin 4096) :
    val_main_v31 (F := Ideal) x0 x2 x3 x4 x5 x10 (ix2 r j) = pr x0 x2 x3 x4 x5 x10 r j := by
  have e : idx_main_v29 (idx_main_v30 (ix2 r j)) = ix1 j := by
    funext a; match a with | ⟨0, _⟩ => rfl
  rw [val_main_v31_apply, v28_at x0 x2 x3 x4 x10 hnn, val_main_v30_apply, val_main_v29_apply, e]
  rfl

/-- The class projection at (r, c): the sum over the 4096 features of (pr r j · x1 (r, j)) · x6 (c, j). -/
theorem v34_at (x0 : (⟨S5000x512, .f32⟩ : BufTy).Contents (Elt Ideal))
    (x1 : (⟨S20000x4096, .f32⟩ : BufTy).Contents (Elt Ideal))
    (x2 : (⟨S1024x512, .f32⟩ : BufTy).Contents (Elt Ideal))
    (x3 : (⟨S1024, .f32⟩ : BufTy).Contents (Elt Ideal))
    (x4 : (⟨S4096x1024, .f32⟩ : BufTy).Contents (Elt Ideal))
    (x5 : (⟨S4096, .f32⟩ : BufTy).Contents (Elt Ideal))
    (x6 : (⟨S51x4096, .f32⟩ : BufTy).Contents (Elt Ideal))
    (x10 : (⟨S20000x2, .i32⟩ : BufTy).Contents (Elt Ideal))
    (hnn : ∀ (r : Fin 20000) (j : Fin 2), 0 ≤ (x10 (ix2 r j)).toInt) (r : Fin 20000) (c : Fin 51) :
    val_main_v34 (F := Ideal) x0 x1 x2 x3 x4 x5 x6 x10 (ix2 r c)
      = ∑ j : Fin 4096, (pr x0 x2 x3 x4 x5 x10 r j * x1 (ix2 r j)) * x6 (ix2 c j) := by
  have el : ∀ k : Fin 4096, lidx_main_v34 (ix2 r c) k = ix2 r k := fun k => by
    funext a; match a with | ⟨0, _⟩ => rfl | ⟨1, _⟩ => rfl
  have er : ∀ k : Fin 4096, idx_main_v33 (ridx_main_v34 (ix2 r c) k) = ix2 c k := fun k => by
    funext a; match a with | ⟨0, _⟩ => rfl | ⟨1, _⟩ => rfl
  rw [val_main_v34_apply]
  simp only [val_main_v33_apply, el, er, val_main_v32_apply, v31_at x0 x2 x3 x4 x5 x10 hnn, Ideal.mulf_def]

/-- The reference result at (r, c) is the score G r c, the frequency bias being the program's own gather. -/
theorem ref_at (x0 : (⟨S5000x512, .f32⟩ : BufTy).Contents (Elt Ideal))
    (x1 : (⟨S20000x4096, .f32⟩ : BufTy).Contents (Elt Ideal))
    (x2 : (⟨S1024x512, .f32⟩ : BufTy).Contents (Elt Ideal))
    (x3 : (⟨S1024, .f32⟩ : BufTy).Contents (Elt Ideal))
    (x4 : (⟨S4096x1024, .f32⟩ : BufTy).Contents (Elt Ideal))
    (x5 : (⟨S4096, .f32⟩ : BufTy).Contents (Elt Ideal))
    (x6 : (⟨S51x4096, .f32⟩ : BufTy).Contents (Elt Ideal))
    (x7 : (⟨S51, .f32⟩ : BufTy).Contents (Elt Ideal))
    (x8 : (⟨S22801x51, .f32⟩ : BufTy).Contents (Elt Ideal))
    (x9 : (⟨S5000, .i32⟩ : BufTy).Contents (Elt Ideal))
    (x10 : (⟨S20000x2, .i32⟩ : BufTy).Contents (Elt Ideal))
    (hnn : ∀ (r : Fin 20000) (j : Fin 2), 0 ≤ (x10 (ix2 r j)).toInt) (r : Fin 20000) (c : Fin 51) :
    val_main_v62 (F := Ideal) x0 x1 x2 x3 x4 x5 x6 x7 x8 x9 x10 (ix2 r c)
      = PairScore.G x0 x1 x2 x3 x4 x5 x6 x7 x10 (val_main_v61 (F := Ideal) x8 x9 x10) r c := by
  have e : idx_main_v35 (idx_main_v36 (ix2 r c)) = ix1 c := by
    funext a; match a with | ⟨0, _⟩ => rfl
  rw [val_main_v62_apply, val_main_v37_apply, v34_at x0 x1 x2 x3 x4 x5 x6 x10 hnn, val_main_v36_apply,
    val_main_v35_apply, e]
  rfl

end PairScore.RefSide

end
-- ==== Proof.PreIdx.lean ====
/-
  The index-range conjunct of the precondition, decoded.

  The precondition is a conjunction of one-bit words: the finiteness of every floating-point argument, and last
  the bit "every entry w of the [20000, 2] index table satisfies 0 ≤ w and w < 5000, signed". The last bit is a
  conjunction over all entries (a reduction by `and` over both axes) of the entrywise conjunction of two signed
  comparisons against the literals 0 and 5000. A conjunction of one-bit words is 1 exactly when each is; a reduction
  by `and` that is 1 met only 1s; a signed comparison that is 1 is the inequality of the signed values. So from the
  precondition being 1 every entry w has 0 ≤ w.toInt < 5000.
-/
import proofs.«143439_j42365557408495_2_alg».proof.Pre_finite_inputs
import Idealize.ShloMosaic.Lib.Affine
import Idealize.ShloMosaic.Lib.ReduceAll
import Idealize.ShloMosaic.Lib.ValueIdx

namespace PairScore.PreIdx

open Idealize.ShloMosaic Idealize.ShloMosaic.ValueIdx
open Cert.Pre_finite_inputs

variable [Cert.Pre_finite_inputs.Facts]

/-- The scalar shape has one index. -/
instance : Subsingleton S_.Idx := ⟨fun a b => funext fun d => d.elim0⟩

/-- The signed values of the two literals. -/
theorem toInt_zero : (0#32 : BitVec 32).toInt = 0 := by decide
theorem toInt_5000 : (5000#32 : BitVec 32).toInt = 5000 := by decide

/-- An entry whose two comparison bits conjoin to 1 lies in [0, 5000), signed. -/
theorem word_range (w : BitVec 32)
    (h : IntOp.andi (IntOp.cmpi .sge w (0#32)) (IntOp.cmpi .slt w (5000#32)) = 1#1) :
    0 ≤ w.toInt ∧ w.toInt < 5000 := by
  obtain ⟨h0, h1⟩ := IntOp.andi_eq_one.1 h
  have g0 := IntOp.cmpi_sge.1 h0
  have g1 := IntOp.cmpi_slt.1 h1
  rw [toInt_zero] at g0
  rw [toInt_5000] at g1
  exact ⟨g0, g1⟩

/-- The last part of the precondition: its result is the conjunction of the accumulated bit with further bits, the
    last of which is the conjunction over all entries of the index table of the two comparisons. -/
theorem idx_range_of_part2 {F : FTy → Type} [FloatOps F] (a7 : FVec F S51 .f32) (a8 : FVec F S22801x51 .f32)
    (a10 : IVec S20000x2 32) (v33 : IVec S_ 1)
    (h : fn_part2 (F := F) a7 a8 a10 v33 ix0 = 1#1) (i : S20000x2.Idx) :
    0 ≤ (a10 i).toInt ∧ (a10 i).toInt < 5000 := by
  unfold fn_part2 at h
  have h2 := (IntOp.andi_eq_one.1 h).2
  have h3 := Host.reduce_andi_all _ _ _ _ _ h2 i
  exact word_range (a10 i) h3

/-- THE PRECONDITION DECODED: when the precondition is 1, every entry of the index table lies in [0, 5000), signed.
    The precondition's result is the result of its last part, whose last conjunct is the range bit. -/
theorem idx_range_of_fn {F : FTy → Type} [FloatOps F] (a0 : FVec F S5000x512 .f32) (a1 : FVec F S20000x4096 .f32)
    (a2 : FVec F S1024x512 .f32) (a3 : FVec F S1024 .f32) (a4 : FVec F S4096x1024 .f32) (a5 : FVec F S4096 .f32)
    (a6 : FVec F S51x4096 .f32) (a7 : FVec F S51 .f32) (a8 : FVec F S22801x51 .f32) (a9 : IVec S5000 32)
    (a10 : IVec S20000x2 32)
    (h : fn (F := F) a0 a1 a2 a3 a4 a5 a6 a7 a8 a9 a10 = fun _ => 1#1) (r : Fin 20000) (j : Fin 2) :
    0 ≤ (a10 (ix2 r j)).toInt ∧ (a10 (ix2 r j)).toInt < 5000 := by
  have e : fn (F := F) a0 a1 a2 a3 a4 a5 a6 a7 a8 a9 a10 ix0 = 1#1 := congrFun h ix0
  unfold fn fn_part1 at e
  exact idx_range_of_part2 _ _ a10 _ e (ix2 r j)

/-- The same, as the unsigned value: an entry in [0, 5000) signed has natural value below 5000, equal to its signed
    value. -/
theorem toNat_of_range (w : BitVec 32) (h : 0 ≤ w.toInt ∧ w.toInt < 5000) :
    w.toNat < 5000 ∧ (w.toNat : Int) = w.toInt := by
  obtain ⟨h0, h1⟩ := h
  have h32 := w.isLt
  rw [BitVec.toInt_eq_toNat_cond] at h0 h1 ⊢
  split at h0 <;> omega

end PairScore.PreIdx
-- ==== Proof.Bridge.lean ====
/-
  The two idealized programs compute one function.

  Run from memories that agree on the arguments, the kernel program ends with its result array at what its second
  launch leaves, which entry by entry is the score G of the launch-time arguments (the index words being in range, by the
  precondition); the reference program ends with its result at its composed term, which entry by entry is the same G
  (the index words not being negative). The frequency bias is the same term of the same three arguments on both sides.
-/
import proofs.«143439_j42365557408495_2_alg».proof.Defs
import proofs.«143439_j42365557408495_2_alg».proof.Proof.KernelRun
import proofs.«143439_j42365557408495_2_alg».proof.Proof.MidB
import proofs.«143439_j42365557408495_2_alg».proof.Proof.RefSide
import proofs.«143439_j42365557408495_2_alg».proof.Proof.PreIdx
import proofs.«143439_j42365557408495_2_alg».proof.Proof.Gen.Pre_finite_inputs
import proofs.«143439_j42365557408495_2_alg».proof.Proof.Gen.KernelIdeal
import proofs.«143439_j42365557408495_2_alg».proof.Proof.Gen.ReferenceIdeal

set_option maxRecDepth 16384

noncomputable section

namespace PairScore.Bridge

open Idealize.ShloMosaic Idealize.ShloMosaic.ValueIdx Idealize.ShloMosaic.TcCoe Idealize.SL.Sem

/-- The kernel program's result and the reference's are equal entry by entry. -/
theorem algebraic : Cert.algebraic_KernelIdeal_ReferenceIdeal := by
  intro m ρ m' ρ' hpre hagree
  refine ⟨fun c => Cert.KernelIdeal.Gen.W6 (F := Ideal) m ρ c (Proc.devRef .tc Cert.KernelIdeal.main_v52),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  have hr : ∀ (r : Fin 20000) (j : Fin 2), 0 ≤ (PairScore.Mid.A10 m c (ix2 r j)).toInt ∧ (PairScore.Mid.A10 m c (ix2 r j)).toInt < 5000 :=
    fun r j => PairScore.PreIdx.idx_range_of_fn (F := Ideal) _ _ _ _ _ _ _ _ _ _ _ (hpre c) r j
  have hk : Cert.KernelIdeal.Gen.W6 (F := Ideal) m ρ c (Proc.devRef .tc Cert.KernelIdeal.main_v52)
      = PairScore.K1.score (Cert.KernelIdeal.Gen.V5 (F := Ideal) m ρ) c :=
    (Cert.KernelIdeal.Gen.W6_arr m ρ c 9).trans (PairScore.K1.final9 (Cert.KernelIdeal.Gen.V5 (F := Ideal) m ρ) c)
  obtain ⟨g0, g1, g2, g3, g4, g5, g6, g7, g8, g9, g10⟩ := hagree c
  beta_reduce
  rw [Cert.ReferenceIdeal.Read.val_main_v62_eq, hk, g0, g1, g2, g3, g4, g5, g6, g7, g8, g9, g10]
  funext i
  obtain ⟨r, q, rfl⟩ : ∃ (r : Fin 20000) (q : Fin 51), i = ix2 r q := ⟨i 0, i 1, eq_ix2 i⟩
  refine (PairScore.RefSide.ref_at _ _ _ _ _ _ _ _ _ _ _ (fun r j => (hr r j).1) r q).trans ?_
  exact (PairScore.Mid.score_at m ρ c hr r q).symm

end PairScore.Bridge

end
-- ==== Proof.lean ====
/-
  The certificate: a two-launch relation scorer against its plain reference.

  The kernel program pads and projects the object rows in a first launch (rectified, split into a subject half and an
  object half), gathers the halves at each relation's subject and object on the host, and in a second launch projects
  the pair, multiplies by the union features, projects to the relation classes and adds the frequency bias. The
  reference does the same with one projection, one concatenation and whole-array products. On the extended reals both
  end with the same score at every (relation, class): the sums differ only in how the 1024 pair columns are split in
  two, and the kernel's gather out of the padded rows reads the same rows as the reference's once the index words are
  in range, which the precondition states.

  The three frames: the two kernel programs' are generated whole; the reference's is its generated run with the result
  dropped. The idealization rewrote nothing, so the kernel's idealization claim is trivial.
-/
import proofs.«143439_j42365557408495_2_alg».proof.Defs
import proofs.«143439_j42365557408495_2_alg».proof.Proof.Gen.Kernel
import proofs.«143439_j42365557408495_2_alg».proof.Proof.Gen.Kernel.Frame
import proofs.«143439_j42365557408495_2_alg».proof.Proof.Gen.KernelIdeal
import proofs.«143439_j42365557408495_2_alg».proof.Proof.Gen.KernelIdeal.Frame
import proofs.«143439_j42365557408495_2_alg».proof.Proof.Gen.ReferenceIdeal
import proofs.«143439_j42365557408495_2_alg».proof.Proof.Gen.ReferenceIdeal.Run
import proofs.«143439_j42365557408495_2_alg».proof.Proof.Gen.ReferenceIdeal.Read
import proofs.«143439_j42365557408495_2_alg».proof.Proof.Gen.Pre_finite_inputs
import proofs.«143439_j42365557408495_2_alg».proof.Proof.Bridge

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  PairScore.Bridge.algebraic⟩

end Cert.Proof

end
